-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩

abbrev nBuf : Space → Nat
  | .hbm => 87
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x128, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S128x128, .f32⟩
  | .hbm, ⟨60, _⟩ => ⟨S128, .f32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x64, .f32⟩
  | .hbm, ⟨86, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S128x64_S128x64_S128x128_d1 : Shape.Concatenates [S128x64, S128x64] S128x128 1
  concatenates_S64_S64_S128_d0 : Shape.Concatenates [S64, S64] S128 0
  shapeCasts_S5000x128_S5000x128 : S5000x128.ShapeCasts S5000x128
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x64, .f32⟩
  | .hbm, ⟨104, _⟩ => ⟨S1700000x64, .f32⟩
  | .hbm, ⟨105, _⟩ => ⟨S_, .f32⟩
  | .hbm, ⟨106, _⟩ => ⟨S100000x64, .f32⟩
  | .hbm, ⟨107, _⟩ => ⟨S1700000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelStages.lean ====
/-
  The stages of the idealized kernel program, as functions of whole arrays.

  From the edge list `x1` (row 0 the sources, row 1 the targets) the program computes the node factors
  `dinv = where(deg > 0, rsqrt(max(deg, 1)), 0)` with `deg` the number of edges into a node plus one, then two layers
  `layer dinv src dst ht b = dinv · (segment_sum(scaled[src], dst) + scaled) + b` with `scaled = ht · dinv`, where `ht` is a
  pallas region's matrix product of the layer's input with its weights; a rectifier sits between the layers, the second
  layer's weights and biases are the two heads' joined side by side, and the results are the two halves of its columns.
-/
import proofs.«174673_j36627481101161_2_alg».proof.Proof.Gen.KernelIdeal
import Idealize.ShloMosaic.Lib.ValueIdx

noncomputable section

open scoped BigOperators

namespace Cert.KernelIdeal.Fold

open Cert.KernelIdeal Cert.KernelIdeal.Gen
open Idealize.ShloMosaic Idealize.ShloMosaic.TcCoe

/-- Float and integer arrays at the ideal instance. -/
abbrev VF (s : Shape) := FVec Ideal s .f32
abbrev VI (s : Shape) := IVec s 32

/-- The edges' sources: row 0 of the edge list. -/
def src (x1 : VI S2x1600000) : VI S1600000 :=
  shapeCast S1600000 (extractStridedSlice S1x1600000 ![0, 0] x1 slices_S2x1600000_S1x1600000_0_0) shapeCasts_S1x1600000_S1600000
/-- The edges' targets: row 1 of the edge list. -/
def dst (x1 : VI S2x1600000) : VI S1600000 :=
  shapeCast S1600000 (extractStridedSlice S1x1600000 ![1, 0] x1 slices_S2x1600000_S1x1600000_1_0) shapeCasts_S1x1600000_S1600000

/-- The degree: one per edge into the node, plus one for the node's own loop. -/
def deg (x1 : VI S2x1600000) : VF S100000 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dst x1))
      (broadcastInDim S1600000 ![] bcast_S_S1600000 (constant (F := Ideal) S_ .f32 0x3F800000#32)))
    (broadcastInDim S100000 ![] bcast_S_S100000 (constant (F := Ideal) S_ .f32 0x3F800000#32))

/-- The node factor: the inverse square root of the degree (raised to at least one) where the degree is positive, else zero. -/
def dinv (x1 : VI S2x1600000) : VF S100000 :=
  select (cmpf (F := Ideal) .ogt (deg x1) (broadcastInDim S100000 ![] bcast_S_S100000 (constant (F := Ideal) S_ .f32 0x00000000#32)))
    (Host.rsqrt (maximumf (deg x1) (broadcastInDim S100000 ![] bcast_S_S100000 (constant (F := Ideal) S_ .f32 0x3F800000#32))))
    (broadcastInDim S100000 ![] bcast_S_S100000 (id (constant (F := Ideal) S_ .f32 0x00000000#32)))

/-- A source index as the gather reads it: a negative one moved up by the number of nodes. -/
def wrap (s : VI S1600000) : VI S1600000 :=
  select (cmpi .slt s (broadcastInDim S1600000 ![] bcast_S_S1600000 (constantI S_ 32 0#32)))
    (addi s (broadcastInDim S1600000 ![] bcast_S_S1600000 (constantI S_ 32 100000#32))) s

/-- The node factor laid along the columns. -/
def cols (d : VF S100000) : VF S100000x128 :=
  broadcastInDim S100000x128 ![0, 1] bcast_S100000x1_S100000x128_0_1 (broadcastInDim S100000x1 ![0] bcast_S100000_S100000x1_0 d)

/-- One layer after its matrix product `ht`: scale by the source's factor, sum the edges' messages into their targets,
    add the node's own scaled feature, scale by the target's factor, add the bias. -/
def layer (d : VF S100000) (s t : VI S1600000) (ht : VF S100000x128) (b : VF S128) : VF S100000x128 :=
  addf (mulf (cols d)
      (addf (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 t)
          (Host.gather gather_S100000x128_S1600000x1_S1600000x128_1_0_n_n_0_1_1128 (mulf ht (cols d))
            (broadcastInDim S1600000x1 ![0] bcast_S1600000_S1600000x1_0 (wrap s))))
        (mulf ht (cols d))))
    (broadcastInDim S100000x128 ![0, 1] bcast_S1x128_S100000x128_0_1 (broadcastInDim S1x128 ![1] bcast_S128_S1x128_1 b))

/-- The rectifier between the layers. -/
def relu (h : VF S100000x128) : VF S100000x128 :=
  maximumf h (broadcastInDim S100000x128 ![] bcast_S_S100000x128 (constant (F := Ideal) S_ .f32 0x00000000#32))

/-- The two heads' weights side by side, and their biases end to end. -/
def joinW (a b : VF S128x64) : VF S128x128 := concatenate S128x128 1 [⟨S128x64, a⟩, ⟨S128x64, b⟩] concatenates_S128x64_S128x64_S128x128_d1
def joinB (a b : VF S64) : VF S128 := concatenate S128 0 [⟨S64, a⟩, ⟨S64, b⟩] concatenates_S64_S64_S128_d0

/-- The row-by-column product a region leaves: entry (i, j) is the sum over k of a(i, k) · w(k, j). -/
def prod (a : VF S100000x128) (w : VF S128x128) : VF S100000x128 :=
  fun i => ∑ k : Fin 128, a (ValueIdx.ix2 (i 0) k) * w (ValueIdx.ix2 k (i 1))

/-- The first layer's output, rectified: the second region's left operand. -/
def hidden (x0 : VF S100000x128) (x1 : VI S2x1600000) (x2 : VF S128x128) (x3 : VF S128) : VF S100000x128 :=
  relu (layer (dinv x1) (src x1) (dst x1) (prod x0 x2) x3)

/-- The second layer before it is split: all 128 columns. -/
def heads (x0 : VF S100000x128) (x1 : VI S2x1600000) (x2 : VF S128x128) (x3 : VF S128) (x4 : VF S128x64) (x5 : VF S64)
    (x6 : VF S128x64) (x7 : VF S64) : VF S100000x128 :=
  layer (dinv x1) (src x1) (dst x1) (prod (hidden x0 x1 x2 x3) (joinW x4 x6)) (joinB x5 x7)

/-- The two results: the left and the right 64 columns of the second layer. -/
def out0 (x0 : VF S100000x128) (x1 : VI S2x1600000) (x2 : VF S128x128) (x3 : VF S128) (x4 : VF S128x64) (x5 : VF S64)
    (x6 : VF S128x64) (x7 : VF S64) : VF S100000x64 :=
  extractStridedSlice S100000x64 ![0, 0] (heads x0 x1 x2 x3 x4 x5 x6 x7) slices_S100000x128_S100000x64_0_0
def out1 (x0 : VF S100000x128) (x1 : VI S2x1600000) (x2 : VF S128x128) (x3 : VF S128) (x4 : VF S128x64) (x5 : VF S64)
    (x6 : VF S128x64) (x7 : VF S64) : VF S100000x64 :=
  extractStridedSlice S100000x64 ![0, 64] (heads x0 x1 x2 x3 x4 x5 x6 x7) slices_S100000x128_S100000x64_0_64

end Cert.KernelIdeal.Fold

end
-- ==== Proof.KernelStagesG.lean ====
/-
  The stages of the kernel program over ANY float arithmetic: the same functions as KernelStages.lean with the
  arithmetic a parameter — the degree, the node factor, the factor laid along the columns, a layer after its matrix
  product, the rectifier, and the heads' weights and biases joined. The kernel program's host operations compute these
  whatever the arithmetic; at the extended reals each of them is the corresponding stage of KernelStages.lean,
  definition by definition (the lemmas `…_ideal`).
-/
import proofs.«174673_j36627481101161_2_alg».proof.Proof.KernelStages

noncomputable section

namespace Cert.KernelIdeal.Fold

open Cert.KernelIdeal Cert.KernelIdeal.Gen
open Idealize.ShloMosaic Idealize.ShloMosaic.TcCoe

section Generic
variable {F : FTy → Type} [FloatOps F]

/-- The degree: one per edge into the node, plus one for the node's own loop. -/
def degG (x1 : IVec S2x1600000 32) : FVec F S100000 .f32 :=
  addf (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 (dst x1))
      (broadcastInDim S1600000 ![] bcast_S_S1600000 (constant (F := F) S_ .f32 0x3F800000#32)))
    (broadcastInDim S100000 ![] bcast_S_S100000 (constant (F := F) S_ .f32 0x3F800000#32))

/-- The node factor: the inverse square root of the degree (raised to at least one) where the degree is positive, else zero. -/
def dinvG (x1 : IVec S2x1600000 32) : FVec F S100000 .f32 :=
  select (cmpf (F := F) .ogt (degG x1) (broadcastInDim S100000 ![] bcast_S_S100000 (constant (F := F) S_ .f32 0x00000000#32)))
    (Host.rsqrt (maximumf (degG x1) (broadcastInDim S100000 ![] bcast_S_S100000 (constant (F := F) S_ .f32 0x3F800000#32))))
    (broadcastInDim S100000 ![] bcast_S_S100000 (id (constant (F := F) S_ .f32 0x00000000#32)))

/-- The node factor laid along the columns. -/
def colsG (d : FVec F S100000 .f32) : FVec F S100000x128 .f32 :=
  broadcastInDim S100000x128 ![0, 1] bcast_S100000x1_S100000x128_0_1 (broadcastInDim S100000x1 ![0] bcast_S100000_S100000x1_0 d)

/-- One layer after its matrix product `ht`: scale by the source's factor, sum the edges' messages into their targets,
    add the node's own scaled feature, scale by the target's factor, add the bias. -/
def layerG (d : FVec F S100000 .f32) (s t : IVec S1600000 32) (ht : FVec F S100000x128 .f32) (b : FVec F S128 .f32) : FVec F S100000x128 .f32 :=
  addf (mulf (colsG d)
      (addf (Host.scatterAdd scatter_S100000x128_S1600000x1_S1600000x128_1_0_0_1
          (broadcastInDim S100000x128 ![] bcast_S_S100000x128 (constant (F := F) S_ .f32 0x00000000#32))
          (broadcastInDim S1600000x1 ![0] bcast_S1600000_S1600000x1_0 t)
          (Host.gather gather_S100000x128_S1600000x1_S1600000x128_1_0_n_n_0_1_1128 (mulf ht (colsG d))
            (broadcastInDim S1600000x1 ![0] bcast_S1600000_S1600000x1_0 (wrap s))))
        (mulf ht (colsG d))))
    (broadcastInDim S100000x128 ![0, 1] bcast_S1x128_S100000x128_0_1 (broadcastInDim S1x128 ![1] bcast_S128_S1x128_1 b))

/-- The rectifier between the layers. -/
def reluG (h : FVec F S100000x128 .f32) : FVec F S100000x128 .f32 :=
  maximumf h (broadcastInDim S100000x128 ![] bcast_S_S100000x128 (constant (F := F) S_ .f32 0x00000000#32))

/-- The two heads' weights side by side, and their biases end to end. -/
def joinWG (a b : FVec F S128x64 .f32) : FVec F S128x128 .f32 := concatenate S128x128 1 [⟨S128x64, a⟩, ⟨S128x64, b⟩] concatenates_S128x64_S128x64_S128x128_d1
def joinBG (a b : FVec F S64 .f32) : FVec F S128 .f32 := concatenate S128 0 [⟨S64, a⟩, ⟨S64, b⟩] concatenates_S64_S64_S128_d0

end Generic

/-! ## At the ideal instance these are the stages of KernelStages.lean -/

theorem colsG_ideal (d : VF S100000) : colsG (F := Ideal) d = cols d := rfl
theorem degG_ideal (x1 : VI S2x1600000) : degG (F := Ideal) x1 = deg x1 := rfl
theorem dinvG_ideal (x1 : VI S2x1600000) : dinvG (F := Ideal) x1 = dinv x1 := by
  unfold dinvG dinv; rw [degG_ideal]
theorem layerG_ideal (d : VF S100000) (s t : VI S1600000) (ht : VF S100000x128) (b : VF S128) :
    layerG (F := Ideal) d s t ht b = layer d s t ht b := by
  unfold layerG layer; rw [colsG_ideal]
theorem reluG_ideal (h : VF S100000x128) : reluG (F := Ideal) h = relu h := rfl
theorem joinWG_ideal (a b : VF S128x64) : joinWG (F := Ideal) a b = joinW a b := rfl
theorem joinBG_ideal (a b : VF S64) : joinBG (F := Ideal) a b = joinB a b := rfl

end Cert.KernelIdeal.Fold

end
-- ==== Proof.RegionProduct.lean ====
import proofs.«174673_j36627481101161_2_alg».proof.Proof.Gen.KernelIdeal.Frame
import Idealize.ShloMosaic.Lib.ValueIdx
import Idealize.ShloMosaic.Lib.Pipeline.Value
import Idealize.ShloMosaic.PureOps.Ideal.Laws

/-!
# The two matmul regions' output arrays as whole-array matrix products

Each of the two regions runs the same body over a grid of 20 points: point `t` multiplies rows
`5000 t … 5000 t + 4999` of a [100000,128] array by a whole [128,128] matrix (both first cast to a narrower
float format, which is the identity on extended reals) and adds the product onto a zero block. So, entry by
entry, the [100000,128] output array ends holding the matrix product of the two input arrays as the region
found them: entry (r, c) is the sum over k of A[r, k] · B[k, c].
-/

noncomputable section

namespace Cert.KernelIdeal.RegionProduct

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The specification -/

/-- The matrix product of a [100000,128] array `A` with a [128,128] matrix `B`, entry by entry:
    entry (r, c) is `∑ k, A[r, k] · B[k, c]`. -/
def matProd (A : S100000x128.Idx → EReal) (B : S128x128.Idx → EReal) : S100000x128.Idx → EReal :=
  fun i => ∑ k : Fin 128, A (ix2 (i 0) k) * B (ix2 k (i 1))

/-- The product at an entry given by its row and column. -/
theorem matProd_apply (A : S100000x128.Idx → EReal) (B : S128x128.Idx → EReal) (r : Fin 100000) (c : Fin 128) :
    matProd A B (ix2 r c) = ∑ k : Fin 128, A (ix2 r k) * B (ix2 k c) := rfl

/-! ## One block's product at an entry -/

/-- The left operand's index of the [5000,128] × [128,128] product at output entry `i` and contraction
    index `q` has `i`'s row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and the contraction index as its column; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's has the contraction index as its row … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and `i`'s column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] block times a [128,128] matrix onto the zero block, at entry (p, q): the plain sum over the
    contraction index of the products (`0 + s = s`). -/
theorem blockProd_apply (x0 : FVec Ideal S5000x128 .bf16) (x1 : FVec Ideal S128x128 .bf16) (p : Fin 5000) (q : Fin 128) :
    FloatOps.matmul dot_S5000x128_S128x128_S5000x128_1_0_0_1_n_n none x0 x1 (constant (F := Ideal) S5000x128 .f32 0x00000000#32) (ix2 p q)
      = ∑ k : Fin 128, x0 (ix2 p k) * x1 (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- Region 0's stored value at entry (p, q) of a block, from the two loaded blocks: the casts to the narrower
    format are the identity, so it is the sum over k of `x0[p, k] · x1[k, q]`. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact blockProd_apply _ _ p q

/-! ## Region 0: from blocks to the array -/

section Region0

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the 20 grid points: point `t` takes row block `t` of the left array and of
    the output, column block 0 of both, and block (0, 0) of the matrix. -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left array's block at point `t` is entry (5000 t + p, k) of the array. -/
theorem rows0 (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := blockIndices0 t
  unfold iblk0
  rw [View.read_apply]
  show V c main_arg0 _ = V c main_arg0 _
  refine congrArg (V c main_arg0) ?_
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The matrix's block at every point is the whole matrix. -/
theorem matrix0 (c : Dev nD) (t : Fin cfg0.N) (k q : Fin 128) :
    (iblk0 V c 1 t : Vec Ideal S128x128 .f32) (ix2 k q) = (V c main_arg2 : S128x128.Idx → EReal) (ix2 k q) := by
  obtain ⟨-, -, e2, e3, -⟩ := blockIndices0 t
  unfold iblk0
  rw [View.read_apply]
  show V c main_arg2 _ = V c main_arg2 _
  refine congrArg (V c main_arg2) ?_
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- What point `t` stores at entry (p, q) of its block is entry (5000 t + p, q) of the product of the two arrays. -/
theorem entry0 (c : Dev nD) (t : Fin cfg0.N) (p : Fin 5000) (q : Fin 128) (r : Fin 100000)
    (hr : r.val = t.val * 5000 + p.val) :
    k0_pay1 (F := Ideal) (iblk0 V c 0 t) (iblk0 V c 1 t) (ix2 p q)
      = matProd (V c main_arg0) (V c main_arg2) (ix2 r q) := by
  refine (pay0_apply (iblk0 V c 0 t) (iblk0 V c 1 t) p q).trans ?_
  rw [matProd_apply]
  refine Finset.sum_congr rfl fun k _ => ?_
  exact congrArg₂ (· * ·) (rows0 V c t p k r hr) (matrix0 V c t k q)

/-- What point `t` writes back is block `t` of the product of the two arrays as the region finds them. -/
theorem flushed0_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  funext j
  obtain ⟨p, q, rfl⟩ : ∃ (p : Fin 5000) (q : Fin 128), j = ix2 p q := ⟨j 0, j 1, eq_ix2 j⟩
  have hN : cfg0.N = 20 := N_0
  have ht : t.val < cfg0.N := t.isLt
  have hp : p.val < 5000 := p.isLt
  obtain ⟨-, -, -, -, e4, e5⟩ := blockIndices0 t
  have hemb : ((cfg0.win 2).blk t).view.emb (ix2 p q)
      = ix2 (⟨t.val * 5000 + p.val, by omega⟩ : Fin 100000) q := by
    funext a
    apply Fin.ext
    match a with
    | ⟨0, _⟩ => show win0_2.index t 0 * 5000 + 1 * p.val = t.val * 5000 + p.val; rw [e4]; omega
    | ⟨1, _⟩ => show win0_2.index t 1 * 128 + 1 * q.val = q.val; rw [e5]; omega
  show k0_pay1 (iblk0 V c 0 t) (iblk0 V c 1 t) (ix2 p q)
    = matProd (V c main_arg0) (V c main_arg2) (((cfg0.win 2).blk t).view.emb (ix2 p q))
  rw [hemb]
  exact entry0 V c t p q _ rfl

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v16).slice (win0_2.rect t)).set ↔ _
  rw [View.set_slice_whole, Rect.mem_set_unit]
  exact Iff.rfl

/-- Every entry of the output array is written back by some point: row `r` by point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e4, e5⟩ := blockIndices0 t
  refine ⟨t, flush0_2 t, ?_⟩
  rw [mem_block0]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

/-- REGION 0's OUTPUT ARRAY after its 20 write-backs is the matrix product of its two input arrays as the
    region finds them: entry (r, c) is `∑ k, A[r, k] · B[k, c]` with `A` the [100000,128] array of window 0
    and `B` the [128,128] matrix of window 1 (the zero block the body adds onto contributes nothing). -/
theorem region0_product (c : Dev nD) :
    (dat0 (F := Ideal) V c).arrAt 2 cfg0.N
      = matProd (V c (Pipeline.arrRef spec0 0)) (V c (Pipeline.arrRef spec0 1)) :=
  (dat0 V c).arrAt_eq_of_cover 2 (matProd (V c main_arg0) (V c main_arg2))
    (fun t _ => flushed0_eq V c t) cover0

end Region0

/-- Region 1's stored value at entry (p, q) of a block: the same product, its two loaded blocks first recast
    to their own shapes (the identity) and to the narrower format (the identity). -/
theorem pay1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [shapeCast_self]
  exact blockProd_apply _ _ p q

/-! ## Region 1: from blocks to the array -/

section Region1

variable (V : (c : Dev nD) → (b : Ref sig .tc) → Buf (Elt Ideal) ((c : Thread nD τ).loc b))

/-- The printed index maps over the 20 grid points: point `t` takes row block `t` of the left array and of
    the output, column block 0 of both, and block (0, 0) of the matrix. -/
theorem blockIndices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left array's block at point `t` is entry (5000 t + p, k) of the array. -/
theorem rows1 (c : Dev nD) (t : Fin cfg1.N) (p : Fin 5000) (k : Fin 128) (r : Fin 100000)
    (hr : r.val = t.val * 5000 + p.val) :
    (iblk1 V c 0 t : Vec Ideal S5000x128 .f32) (ix2 p k) = (V c main_v37 : S100000x128.Idx → EReal) (ix2 r k) := by
  obtain ⟨e0, e1, -⟩ := blockIndices1 t
  unfold iblk1
  rw [View.read_apply]
  show V c main_v37 _ = V c main_v37 _
  refine congrArg (V c main_v37) ?_
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The matrix's block at every point is the whole matrix. -/
theorem matrix1 (c : Dev nD) (t : Fin cfg1.N) (k q : Fin 128) :
    (iblk1 V c 1 t : Vec Ideal S128x128 .f32) (ix2 k q) = (V c main_v38 : S128x128.Idx → EReal) (ix2 k q) := by
  obtain ⟨-, -, e2, e3, -⟩ := blockIndices1 t
  unfold iblk1
  rw [View.read_apply]
  show V c main_v38 _ = V c main_v38 _
  refine congrArg (V c main_v38) ?_
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

/-- What point `t` stores at entry (p, q) of its block is entry (5000 t + p, q) of the product of the two arrays. -/
theorem entry1 (c : Dev nD) (t : Fin cfg1.N) (p : Fin 5000) (q : Fin 128) (r : Fin 100000)
    (hr : r.val = t.val * 5000 + p.val) :
    k1_pay1 (F := Ideal) (iblk1 V c 0 t) (iblk1 V c 1 t) (ix2 p q)
      = matProd (V c main_v37) (V c main_v38) (ix2 r q) := by
  refine (pay1_apply (iblk1 V c 0 t) (iblk1 V c 1 t) p q).trans ?_
  rw [matProd_apply]
  refine Finset.sum_congr rfl fun k _ => ?_
  exact congrArg₂ (· * ·) (rows1 V c t p k r hr) (matrix1 V c t k q)

/-- What point `t` writes back is block `t` of the product of the two arrays as the region finds them. -/
theorem flushed1_eq (c : Dev nD) (t : Fin cfg1.N) :
    (dat1 V c).flushed 2 t
      = ((cfg1.win 2).blk t).view.read (Elt Ideal) (matProd (V c main_v37) (V c main_v38)) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S128x128) zeroOffsets]
  funext j
  obtain ⟨p, q, rfl⟩ : ∃ (p : Fin 5000) (q : Fin 128), j = ix2 p q := ⟨j 0, j 1, eq_ix2 j⟩
  have hN : cfg1.N = 20 := N_1
  have ht : t.val < cfg1.N := t.isLt
  have hp : p.val < 5000 := p.isLt
  obtain ⟨-, -, -, -, e4, e5⟩ := blockIndices1 t
  have hemb : ((cfg1.win 2).blk t).view.emb (ix2 p q)
      = ix2 (⟨t.val * 5000 + p.val, by omega⟩ : Fin 100000) q := by
    funext a
    apply Fin.ext
    match a with
    | ⟨0, _⟩ => show win1_2.index t 0 * 5000 + 1 * p.val = t.val * 5000 + p.val; rw [e4]; omega
    | ⟨1, _⟩ => show win1_2.index t 1 * 128 + 1 * q.val = q.val; rw [e5]; omega
  show k1_pay1 (iblk1 V c 0 t) (iblk1 V c 1 t) (ix2 p q)
    = matProd (V c main_v37) (V c main_v38) (((cfg1.win 2).blk t).view.emb (ix2 p q))
  rw [hemb]
  exact entry1 V c t p q _ rfl

/-- An index of the output array is in point `t`'s block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v40).slice (win1_2.rect t)).set ↔ _
  rw [View.set_slice_whole, Rect.mem_set_unit]
  exact Iff.rfl

/-- Every entry of the output array is written back by some point: row `r` by point `r / 5000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, e4, e5⟩ := blockIndices1 t
  refine ⟨t, flush1_2 t, ?_⟩
  rw [mem_block1]
  intro a
  match a with
  | ⟨0, _⟩ =>
    show win1_2.index t 0 * 5000 ≤ (i 0).val ∧ (i 0).val < win1_2.index t 0 * 5000 + 5000
    rw [e4, ht]; omega
  | ⟨1, _⟩ =>
    show win1_2.index t 1 * 128 ≤ (i 1).val ∧ (i 1).val < win1_2.index t 1 * 128 + 128
    rw [e5]; omega

/-- REGION 1's OUTPUT ARRAY after its 20 write-backs is the matrix product of its two input arrays as the
    region finds them: entry (r, c) is `∑ k, A[r, k] · B[k, c]` with `A` the [100000,128] array of window 0
    and `B` the [128,128] matrix of window 1 (the zero block the body adds onto contributes nothing). -/
theorem region1_product (c : Dev nD) :
    (dat1 (F := Ideal) V c).arrAt 2 cfg1.N
      = matProd (V c (Pipeline.arrRef spec1 0)) (V c (Pipeline.arrRef spec1 1)) :=
  (dat1 V c).arrAt_eq_of_cover 2 (matProd (V c main_v37) (V c main_v38))
    (fun t _ => flushed1_eq V c t) cover1

end Region1

end Cert.KernelIdeal.RegionProduct

end
-- ==== Proof.KernelFold.lean ====
/-
  The idealized kernel program's two results as ONE composed term of its arguments: each segment boundary of the run is
  read back to the one before it — a stretch of host operations by the operations' own functions (whatever the float
  arithmetic), a region's output array by the region's product (at the extended reals) — until only the argument arrays are left. The stages are those of KernelStages.lean: the node factors, the
  two layers around the two regions' matrix products, the rectifier between them, the second layer's joined weights
  and biases, and the two halves of its columns.
-/
import proofs.«174673_j36627481101161_2_alg».proof.Proof.Gen.KernelIdeal.Frame
import proofs.«174673_j36627481101161_2_alg».proof.Proof.KernelStagesG
import proofs.«174673_j36627481101161_2_alg».proof.Proof.RegionProduct
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! # The stretches of host operations, for any float instance -/

section Generic
variable {F : FTy → Type} [FloatOps F]
variable (m : (ℓ : Loc nD τ sig) → Buf (Elt F) ℓ) (ρ : Dev nD → PrngReg) (c : Dev nD)

/-! ## The first region's entry contents: the edge list's two rows, the node factors, the arguments untouched -/

theorem W2_src : W2 m ρ c (Proc.devRef .tc main_v1) = src (m ((c : Thread nD τ).loc main_arg1)) := by
  show StableHlo.after hostOps0_1 (StableHlo.after hostOps0 (W0 m ρ c)) (Proc.devRef .tc main_v1) = _
  after_results; rfl
theorem W2_dst : W2 m ρ c (Proc.devRef .tc main_v3) = dst (m ((c : Thread nD τ).loc main_arg1)) := by
  show StableHlo.after hostOps0_1 (StableHlo.after hostOps0 (W0 m ρ c)) (Proc.devRef .tc main_v3) = _
  after_results; rfl
set_option maxHeartbeats 4000000 in
theorem W2_dinv : W2 m ρ c (Proc.devRef .tc main_v15) = dinvG (F := F) (m ((c : Thread nD τ).loc main_arg1)) := by
  show StableHlo.after hostOps0_1 (StableHlo.after hostOps0 (W0 m ρ c)) (Proc.devRef .tc main_v15) = _
  after_results; rfl
theorem W2_arg0 : W2 m ρ c (Proc.devRef .tc main_arg0) = (m ((c : Thread nD τ).loc main_arg0)) := by
  show StableHlo.after hostOps0_1 (StableHlo.after hostOps0 (W0 m ρ c)) (Proc.devRef .tc main_arg0) = _
  after_results
theorem W2_arg2 : W2 m ρ c (Proc.devRef .tc main_arg2) = (m ((c : Thread nD τ).loc main_arg2)) := by
  show StableHlo.after hostOps0_1 (StableHlo.after hostOps0 (W0 m ρ c)) (Proc.devRef .tc main_arg2) = _
  after_results
theorem W2_arg3 : W2 m ρ c (Proc.devRef .tc main_arg3) = (m ((c : Thread nD τ).loc main_arg3)) := by
  show StableHlo.after hostOps0_1 (StableHlo.after hostOps0 (W0 m ρ c)) (Proc.devRef .tc main_arg3) = _
  after_results
theorem W2_arg4 : W2 m ρ c (Proc.devRef .tc main_arg4) = (m ((c : Thread nD τ).loc main_arg4)) := by
  show StableHlo.after hostOps0_1 (StableHlo.after hostOps0 (W0 m ρ c)) (Proc.devRef .tc main_arg4) = _
  after_results
theorem W2_arg5 : W2 m ρ c (Proc.devRef .tc main_arg5) = (m ((c : Thread nD τ).loc main_arg5)) := by
  show StableHlo.after hostOps0_1 (StableHlo.after hostOps0 (W0 m ρ c)) (Proc.devRef .tc main_arg5) = _
  after_results
theorem W2_arg6 : W2 m ρ c (Proc.devRef .tc main_arg6) = (m ((c : Thread nD τ).loc main_arg6)) := by
  show StableHlo.after hostOps0_1 (StableHlo.after hostOps0 (W0 m ρ c)) (Proc.devRef .tc main_arg6) = _
  after_results
theorem W2_arg7 : W2 m ρ c (Proc.devRef .tc main_arg7) = (m ((c : Thread nD τ).loc main_arg7)) := by
  show StableHlo.after hostOps0_1 (StableHlo.after hostOps0 (W0 m ρ c)) (Proc.devRef .tc main_arg7) = _
  after_results

/-- What the first region does not write it leaves as it found it. -/
theorem W3_keep (b : Ref sig .tc) (hb : ∀ w, Pipeline.arrRef spec0 w ≠ b) :
    W3 m ρ c (Proc.devRef .tc b) = W2 m ρ c (Proc.devRef .tc b) := W3_of_ne m ρ c b hb

/-! ## Between the regions: the first layer over the first region's output, the rectifier, the joined second weights -/

set_option maxHeartbeats 4000000 in
theorem W6_hiddenG : W6 m ρ c (Proc.devRef .tc main_v37)
    = reluG (layerG (dinvG (F := F) (m ((c : Thread nD τ).loc main_arg1))) (src (m ((c : Thread nD τ).loc main_arg1))) (dst (m ((c : Thread nD τ).loc main_arg1))) (W3 m ρ c (Proc.devRef .tc main_v16)) (m ((c : Thread nD τ).loc main_arg3))) := by
  show StableHlo.after hostOps1_2 (StableHlo.after hostOps1_1 (StableHlo.after hostOps1 (W3 m ρ c))) (Proc.devRef .tc main_v37) = _
  after_results
  rw [W3_keep m ρ c main_v15 (by decide), W3_keep m ρ c main_v1 (by decide), W3_keep m ρ c main_v3 (by decide),
    W3_keep m ρ c main_arg3 (by decide), W2_dinv, W2_src, W2_dst, W2_arg3]
  rfl

theorem W6_joinWG : W6 m ρ c (Proc.devRef .tc main_v38) = joinWG (m ((c : Thread nD τ).loc main_arg4)) (m ((c : Thread nD τ).loc main_arg6)) := by
  show StableHlo.after hostOps1_2 (StableHlo.after hostOps1_1 (StableHlo.after hostOps1 (W3 m ρ c))) (Proc.devRef .tc main_v38) = _
  after_results
  rw [W3_keep m ρ c main_arg4 (by decide), W3_keep m ρ c main_arg6 (by decide), W2_arg4, W2_arg6]
  rfl

theorem W6_joinBG : W6 m ρ c (Proc.devRef .tc main_v39) = joinBG (m ((c : Thread nD τ).loc main_arg5)) (m ((c : Thread nD τ).loc main_arg7)) := by
  show StableHlo.after hostOps1_2 (StableHlo.after hostOps1_1 (StableHlo.after hostOps1 (W3 m ρ c))) (Proc.devRef .tc main_v39) = _
  after_results
  rw [W3_keep m ρ c main_arg5 (by decide), W3_keep m ρ c main_arg7 (by decide), W2_arg5, W2_arg7]
  rfl

theorem W6_dinv : W6 m ρ c (Proc.devRef .tc main_v15) = dinvG (F := F) (m ((c : Thread nD τ).loc main_arg1)) := by
  show StableHlo.after hostOps1_2 (StableHlo.after hostOps1_1 (StableHlo.after hostOps1 (W3 m ρ c))) (Proc.devRef .tc main_v15) = _
  after_results
  rw [W3_keep m ρ c main_v15 (by decide), W2_dinv]
theorem W6_src : W6 m ρ c (Proc.devRef .tc main_v1) = src (m ((c : Thread nD τ).loc main_arg1)) := by
  show StableHlo.after hostOps1_2 (StableHlo.after hostOps1_1 (StableHlo.after hostOps1 (W3 m ρ c))) (Proc.devRef .tc main_v1) = _
  after_results
  rw [W3_keep m ρ c main_v1 (by decide), W2_src]
theorem W6_dst : W6 m ρ c (Proc.devRef .tc main_v3) = dst (m ((c : Thread nD τ).loc main_arg1)) := by
  show StableHlo.after hostOps1_2 (StableHlo.after hostOps1_1 (StableHlo.after hostOps1 (W3 m ρ c))) (Proc.devRef .tc main_v3) = _
  after_results
  rw [W3_keep m ρ c main_v3 (by decide), W2_dst]

/-- What the second region does not write it leaves as it found it. -/
theorem W7_keep (b : Ref sig .tc) (hb : ∀ w, Pipeline.arrRef spec1 w ≠ b) :
    W7 m ρ c (Proc.devRef .tc b) = W6 m ρ c (Proc.devRef .tc b) := W7_of_ne m ρ c b hb

/-! ## After the second region: the second layer over the second region's output, and its two halves -/

set_option maxHeartbeats 4000000 in
theorem W8_out0G : W8 m ρ c (Proc.devRef .tc main_v61)
    = extractStridedSlice S100000x64 ![0, 0] (layerG (dinvG (F := F) (m ((c : Thread nD τ).loc main_arg1))) (src (m ((c : Thread nD τ).loc main_arg1))) (dst (m ((c : Thread nD τ).loc main_arg1)))
        (W7 m ρ c (Proc.devRef .tc main_v40)) (joinBG (m ((c : Thread nD τ).loc main_arg5)) (m ((c : Thread nD τ).loc main_arg7)))) slices_S100000x128_S100000x64_0_0 := by
  show StableHlo.after hostOps2 (W7 m ρ c) (Proc.devRef .tc main_v61) = _
  after_results
  rw [W7_keep m ρ c main_v15 (by decide), W7_keep m ρ c main_v1 (by decide), W7_keep m ρ c main_v3 (by decide),
    W7_keep m ρ c main_v39 (by decide), W6_dinv, W6_src, W6_dst, W6_joinBG]
  rfl

set_option maxHeartbeats 4000000 in
theorem W8_out1G : W8 m ρ c (Proc.devRef .tc main_v62)
    = extractStridedSlice S100000x64 ![0, 64] (layerG (dinvG (F := F) (m ((c : Thread nD τ).loc main_arg1))) (src (m ((c : Thread nD τ).loc main_arg1))) (dst (m ((c : Thread nD τ).loc main_arg1)))
        (W7 m ρ c (Proc.devRef .tc main_v40)) (joinBG (m ((c : Thread nD τ).loc main_arg5)) (m ((c : Thread nD τ).loc main_arg7)))) slices_S100000x128_S100000x64_0_64 := by
  show StableHlo.after hostOps2 (W7 m ρ c) (Proc.devRef .tc main_v62) = _
  after_results
  rw [W7_keep m ρ c main_v15 (by decide), W7_keep m ρ c main_v1 (by decide), W7_keep m ρ c main_v3 (by decide),
    W7_keep m ρ c main_v39 (by decide), W6_dinv, W6_src, W6_dst, W6_joinBG]
  rfl

end Generic

/-! # At the ideal instance: the regions' products, and the results as the stages of KernelStages.lean -/

variable (m : (ℓ : Loc nD τ sig) → Buf (Elt Ideal) ℓ) (ρ : Dev nD → PrngReg) (c : Dev nD)

/-- The first region's output array is the product of the features with the first weights. -/
theorem W3_prod : W3 m ρ c (Proc.devRef .tc main_v16) = prod (m ((c : Thread nD τ).loc main_arg0)) (m ((c : Thread nD τ).loc main_arg2)) := by
  refine (W3_arr m ρ c 2).trans ?_
  rw [RegionProduct.region0_product]
  show prod (W2 m ρ c (Proc.devRef .tc main_arg0)) (W2 m ρ c (Proc.devRef .tc main_arg2)) = _
  rw [W2_arg0, W2_arg2]

theorem W6_hidden : W6 m ρ c (Proc.devRef .tc main_v37) = Fold.hidden (m ((c : Thread nD τ).loc main_arg0)) (m ((c : Thread nD τ).loc main_arg1)) (m ((c : Thread nD τ).loc main_arg2)) (m ((c : Thread nD τ).loc main_arg3)) := by
  unfold Fold.hidden
  rw [W6_hiddenG, W3_prod, dinvG_ideal, layerG_ideal, reluG_ideal]

theorem W6_joinW : W6 m ρ c (Proc.devRef .tc main_v38) = joinW (m ((c : Thread nD τ).loc main_arg4)) (m ((c : Thread nD τ).loc main_arg6)) := by
  rw [W6_joinWG, joinWG_ideal]

/-- The second region's output array is the product of the hidden features with the joined weights. -/
theorem W7_prod : W7 m ρ c (Proc.devRef .tc main_v40)
    = prod (Fold.hidden (m ((c : Thread nD τ).loc main_arg0)) (m ((c : Thread nD τ).loc main_arg1)) (m ((c : Thread nD τ).loc main_arg2)) (m ((c : Thread nD τ).loc main_arg3))) (joinW (m ((c : Thread nD τ).loc main_arg4)) (m ((c : Thread nD τ).loc main_arg6))) := by
  refine (W7_arr m ρ c 2).trans ?_
  rw [RegionProduct.region1_product]
  show prod (W6 m ρ c (Proc.devRef .tc main_v37)) (W6 m ρ c (Proc.devRef .tc main_v38)) = _
  rw [W6_hidden, W6_joinW]

/-- The first result is the left 64 columns of the second layer. -/
theorem W8_out0 : W8 m ρ c (Proc.devRef .tc main_v61) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold out0 heads
  rw [W8_out0G, W7_prod, dinvG_ideal, joinBG_ideal, layerG_ideal]

/-- The second result is the right 64 columns of the second layer. -/
theorem W8_out1 : W8 m ρ c (Proc.devRef .tc main_v62) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold out1 heads
  rw [W8_out1G, W7_prod, dinvG_ideal, joinBG_ideal, layerG_ideal]

end Cert.KernelIdeal.Fold

end
-- ==== Proof.RowOps.lean ====
/-
  Row operations along axis 0 read at an index: the host's gather of rows (`x[idx]`) and its accumulating scatter of rows
  (`segment_sum`), for a vector and for a matrix operand, generic in the extents.

  A scatter index is read as a signed integer and is not clamped: update row `r` is added to operand row `a` exactly
  when its index is `a`, and an index that is negative or at least the operand's number of rows is added nowhere. So the
  accumulated entry is the operand's entry plus a sum over ALL update rows of "the update's entry if its index is `a`,
  else zero". A gather's start index is read as a signed integer and clamped into the operand's rows: a negative index
  reads row 0 and one past the end reads the last row.
-/
import Idealize.ShloMosaic.PureOps.Ideal
import Idealize.ShloMosaic.Lib.ValueIdx

noncomputable section

open scoped BigOperators

open Idealize.ShloMosaic Idealize.ShloMosaic.ValueIdx

namespace Cert.RowOps

/-! ## Rank-1 index sets -/

/-- A rank-1 index set is its one coordinate range … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands -/

/-- An update lands on operand index `i` exactly when, on every operand axis, its signed start plus its window
    coordinate is `i`'s coordinate (so a negative or too large sum lands nowhere). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro e a
      have h1 := congrArg (fun f => ((f a).val : ℤ)) e
      have h2 := h a
      simp only at h1
      omega
    · intro e
      funext a
      refine Fin.ext ?_
      have h1 := e a
      have h2 := h a
      show (d.start j idx a + (d.window j a : ℤ)).toNat = (i a).val
      omega
  · rename_i h
    constructor
    · intro e; exact absurd e (by simp)
    · intro e
      exfalso
      apply h
      intro a
      have h1 := e a
      have h2 := (i a).isLt
      omega

/-- An axis is kept exactly when it is not among the dropped ones. -/
theorem mem_kept {s : Shape} (axes : List (Fin s.rank)) (a : Fin s.rank) : a ∈ s.kept axes ↔ a ∉ axes := by
  simp [Shape.kept, List.mem_filter, List.mem_finRange]

/-! ## Row scatter-add into a vector: operand `[N]`, scatter indices `[R, 1]`, updates `[R]` -/

/-- The dimension numbers of `segment_sum` into a vector: no window axis, the operand's one axis inserted and
    indexed by the scatter index; their conditions `wf` are decided on a program's literal shapes. -/
abbrev rowScatter1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `r` lands on entry `a` exactly when its scatter index, read signed, is `a`. -/
theorem rowScatter1_lands {N R w : Nat} (wf : ScatterDims.WF ⟨1, ![N]⟩ ⟨2, ![R, 1]⟩ ⟨1, ![R]⟩ [] [0] [0] 1)
    (idx : IVec ⟨2, ![R, 1]⟩ w) (r : Fin R) (a : Fin N) :
    (rowScatter1 N R wf).resultIdx? (ix1 r) idx = some (ix1 a) ↔ (idx (ix2 r (0 : Fin 1))).toInt = (a.val : ℤ) := by
  rw [resultIdx?_eq_some_iff]
  have hs : (rowScatter1 N R wf).start (ix1 r) idx (0 : Fin 1) = (idx (ix2 r (0 : Fin 1))).toInt := by
    unfold ScatterDims.start
    rw [dif_pos (show (0 : Fin 1) ∈ (rowScatter1 N R wf).scatterDimsToOperandDims from List.mem_singleton.mpr rfl)]
    have hsi : (rowScatter1 N R wf).siIdx (ix1 r) ⟨List.idxOf (0 : Fin 1) (rowScatter1 N R wf).scatterDimsToOperandDims,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
  have hw : (rowScatter1 N R wf).window (ix1 r) (0 : Fin 1) = 0 := by
    unfold ScatterDims.window
    rw [dif_neg (fun h => (mem_kept _ _).mp h (List.mem_singleton.mpr rfl))]
  constructor
  · intro e
    have e0 := e (0 : Fin 1)
    rw [hs, hw] at e0
    simpa using e0
  · intro e b
    obtain rfl : b = (0 : Fin 1) := Subsingleton.elim _ _
    rw [hs, hw, e]
    simp

/-- Row scatter-add into a vector, read at entry `a`: the operand's entry plus the sum of the updates whose scatter
    index, read as a signed integer, is `a`; an update whose index is negative or at least `N` is in no entry's sum. -/
theorem scatterAdd_rows1_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (rowScatter1 N R wf) x idx upd (ix1 a)
      = x (ix1 a) + ∑ r : Fin R, if (idx (ix2 r (0 : Fin 1))).toInt = (a.val : ℤ) then upd (ix1 r) else 0 := by
  unfold Ideal.hostScatterAdd
  show x (ix1 a) + _ = _
  congr 1
  rw [Finset.sum_filter, sum_idx1]
  refine Finset.sum_congr rfl fun r _ => ?_
  by_cases h : (idx (ix2 r (0 : Fin 1))).toInt = (a.val : ℤ)
  · rw [if_pos h, if_pos ((rowScatter1_lands wf idx r a).mpr h)]
  · rw [if_neg h, if_neg (fun h' => h ((rowScatter1_lands wf idx r a).mp h'))]

/-! ## Row scatter-add into a matrix: operand `[N, D]`, scatter indices `[R, 1]`, updates `[R, D]` -/

/-- The dimension numbers of `segment_sum` of rows: the updates' second axis is the window and goes to the operand's
    second axis, the operand's first axis is inserted and indexed by the scatter index; their conditions `wf` are
    decided on a program's literal shapes. -/
abbrev rowScatter2 (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

private theorem one_ne_zero_fin2 : (1 : Fin 2) ≠ 0 := by decide

/-- Update `(r, b')` lands on entry `(a, b)` exactly when row `r`'s scatter index, read signed, is `a` and the
    columns agree. -/
theorem rowScatter2_lands {N R D w : Nat}
    (wf : ScatterDims.WF ⟨2, ![N, D]⟩ ⟨2, ![R, 1]⟩ ⟨2, ![R, D]⟩ [1] [0] [0] 1)
    (idx : IVec ⟨2, ![R, 1]⟩ w) (r : Fin R) (b' : Fin D) (a : Fin N) (b : Fin D) :
    (rowScatter2 N R D wf).resultIdx? (ix2 r b') idx = some (ix2 a b)
      ↔ (idx (ix2 r (0 : Fin 1))).toInt = (a.val : ℤ) ∧ b' = b := by
  rw [resultIdx?_eq_some_iff]
  have hs0 : (rowScatter2 N R D wf).start (ix2 r b') idx (0 : Fin 2) = (idx (ix2 r (0 : Fin 1))).toInt := by
    unfold ScatterDims.start
    rw [dif_pos (show (0 : Fin 2) ∈ (rowScatter2 N R D wf).scatterDimsToOperandDims from List.mem_singleton.mpr rfl)]
    have hsi : (rowScatter2 N R D wf).siIdx (ix2 r b')
        ⟨List.idxOf (0 : Fin 2) (rowScatter2 N R D wf).scatterDimsToOperandDims,
          List.idxOf_lt_length_iff.2 (List.mem_singleton.mpr rfl)⟩ = ix2 r (0 : Fin 1) := by
      funext c; refine Fin.ext ?_
      match c with
      | ⟨0, _⟩ => rfl
      | ⟨1, _⟩ => rfl
    rw [hsi]
  have hs1 : (rowScatter2 N R D wf).start (ix2 r b') idx (1 : Fin 2) = 0 := by
    unfold ScatterDims.start
    rw [dif_neg (fun h => one_ne_zero_fin2 (List.mem_singleton.mp h))]
  have hw0 : (rowScatter2 N R D wf).window (ix2 r b') (0 : Fin 2) = 0 := by
    unfold ScatterDims.window
    rw [dif_neg (fun h => (mem_kept _ _).mp h (List.mem_singleton.mpr rfl))]
  have hw1 : (rowScatter2 N R D wf).window (ix2 r b') (1 : Fin 2) = b'.val := by
    unfold ScatterDims.window
    rw [dif_pos ((mem_kept _ _).mpr (fun h => one_ne_zero_fin2 (List.mem_singleton.mp h)))]
    rfl
  constructor
  · intro e
    have e0 := e (0 : Fin 2)
    have e1 := e (1 : Fin 2)
    rw [hs0, hw0] at e0
    rw [hs1, hw1] at e1
    refine ⟨by simpa using e0, Fin.ext ?_⟩
    have h1 : ((ix2 a b (1 : Fin 2)).val : ℤ) = (b.val : ℤ) := rfl
    omega
  · rintro ⟨e, rfl⟩ c
    match c with
    | ⟨0, _⟩ =>
      show (rowScatter2 N R D wf).start (ix2 r b') idx (0 : Fin 2)
        + ((rowScatter2 N R D wf).window (ix2 r b') (0 : Fin 2) : ℤ) = (a.val : ℤ)
      rw [hs0, hw0, e]; simp
    | ⟨1, _⟩ =>
      show (rowScatter2 N R D wf).start (ix2 r b') idx (1 : Fin 2)
        + ((rowScatter2 N R D wf).window (ix2 r b') (1 : Fin 2) : ℤ) = (b'.val : ℤ)
      rw [hs1, hw1]; simp

/-- Row scatter-add into a matrix, read at entry `(a, b)`: the operand's entry plus the sum, over the update rows
    whose scatter index read as a signed integer is `a`, of the row's entry in column `b`; a row whose index is
    negative or at least `N` is in no entry's sum. -/
theorem scatterAdd_rows2_apply {N R D w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (a : Fin N) (b : Fin D) :
    Ideal.hostScatterAdd (rowScatter2 N R D wf) x idx upd (ix2 a b)
      = x (ix2 a b) + ∑ r : Fin R, if (idx (ix2 r (0 : Fin 1))).toInt = (a.val : ℤ) then upd (ix2 r b) else 0 := by
  unfold Ideal.hostScatterAdd
  show x (ix2 a b) + _ = _
  congr 1
  rw [Finset.sum_filter, sum_idx2]
  refine Finset.sum_congr rfl fun r _ => ?_
  by_cases h : (idx (ix2 r (0 : Fin 1))).toInt = (a.val : ℤ)
  · rw [if_pos h, Finset.sum_eq_single b]
    · rw [if_pos ((rowScatter2_lands wf idx r b a b).mpr ⟨h, rfl⟩)]
    · intro b' _ hb
      rw [if_neg (fun h' => hb ((rowScatter2_lands wf idx r b' a b).mp h').2)]
    · intro hb
      exact absurd (Finset.mem_univ b) hb
  · rw [if_neg h]
    exact Finset.sum_eq_zero fun b' _ => if_neg (fun h' => h ((rowScatter2_lands wf idx r b' a b).mp h').1)

/-! ## Row gather: `x[idx]` along axis 0, start indices `[R, 1]` -/

section Gather
variable {α : Type}

/-- The dimension numbers of `x[idx]` for a vector `x : [N]`: the operand's one axis collapsed and indexed by the start
    index, slices of one element; their conditions `wf` are decided on a program's literal shapes. -/
abbrev rowGather1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Row gather from a vector, read at `r`: the operand at start index `idx[r, 0]`, read as a signed integer and
    clamped into `[0, N − 1]` (a negative index reads entry 0, one past the end reads the last entry). -/
theorem gather_rows1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (rowGather1 N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (rowGather1 N R wf).start (ix1 r) idx 0 + (rowGather1 N R wf).batchCoord (ix1 r) 0
    + (rowGather1 N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N R wf).startIndexMap from List.mem_singleton.mpr rfl)]
  have hsi : (rowGather1 N R wf).siIdx (ix1 r) ⟨List.idxOf (0 : Fin 1) (rowGather1 N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `x[idx]` for a matrix `x : [N, D]`: the operand's first axis collapsed and indexed by the
    start index, its second axis the result's offset axis, slices of one whole row; their conditions `wf` are decided
    on a program's literal shapes. -/
abbrev rowGather2 (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Row gather from a matrix, read at `(r, b)`: column `b` of the operand's row at start index `idx[r, 0]`, read as a
    signed integer and clamped into `[0, N − 1]`. -/
theorem gather_rows2_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (b : Fin D) :
    Host.gather (rowGather2 N R D wf) x idx (ix2 r b)
      = x (ix2 ⟨min (idx (ix2 r (0 : Fin 1))).toInt.toNat (N - 1), by omega⟩ b) := by
  unfold Host.gather
  congr 1
  funext a
  refine Fin.ext ?_
  match a with
  | ⟨0, _⟩ =>
    show (rowGather2 N R D wf).start (ix2 r b) idx (0 : Fin 2) + (rowGather2 N R D wf).batchCoord (ix2 r b) (0 : Fin 2)
      + (rowGather2 N R D wf).offCoord (ix2 r b) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N R D wf).startIndexMap from List.mem_singleton.mpr rfl)]
    have hsi : (rowGather2 N R D wf).siIdx (ix2 r b) ⟨List.idxOf (0 : Fin 2) (rowGather2 N R D wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    show (rowGather2 N R D wf).start (ix2 r b) idx (1 : Fin 2) + (rowGather2 N R D wf).batchCoord (ix2 r b) (1 : Fin 2)
      + (rowGather2 N R D wf).offCoord (ix2 r b) (1 : Fin 2) = b.val
    have hst : (rowGather2 N R D wf).start (ix2 r b) idx (1 : Fin 2) = 0 := by
      unfold GatherDims.start
      rw [dif_neg (fun h => one_ne_zero_fin2 (List.mem_singleton.mp h))]
    have hoff : (rowGather2 N R D wf).offCoord (ix2 r b) (1 : Fin 2) = b.val := by
      unfold GatherDims.offCoord
      rw [dif_pos ((GatherDims.mem_sKept _ _).mpr
        ⟨fun h => one_ne_zero_fin2 (List.mem_singleton.mp h), List.not_mem_nil⟩)]
      rfl
    rw [GatherDims.batchCoord_eq_zero _ _ _ List.not_mem_nil, hst, hoff]
    simp

end Gather

end Cert.RowOps

end
-- ==== Proof.LayerLaw.lean ====
/-
  The algebra that joins the two spellings of a graph-convolution layer, on the extended reals.

  A layer over `N` nodes and `E` edges, one output column at a time: `hw n` is the transformed feature of node `n` in that
  column, `d n` the node's normalising factor (the inverse square root of its degree), `b` the bias. One program sums
  over the `E` edges messages already scaled by the SOURCE's factor, adds the node's own scaled feature, and multiplies
  the total by the TARGET's factor. The other appends one self-loop per node to the edge list and sums, over the
  `E + N` entries, messages scaled by the product of both factors. The two agree because a factor that is nonnegative
  and not `+∞` distributes over sums of extended reals (distributivity fails on the extended reals only for a negative or
  infinite factor), and because the self-loop of node `i` is the one appended entry that lands on row `i`.
-/
import Idealize.ShloMosaic.PureOps.Ideal

noncomputable section

open scoped BigOperators

namespace Cert.Gcn

open Idealize.ShloMosaic

/-- A nonnegative factor other than `+∞` distributes over a finite sum of extended reals. -/
theorem mul_sum_of_nonneg_of_ne_top {ι : Type*} (s : Finset ι) (a : EReal) (ha : 0 ≤ a) (ht : a ≠ ⊤) (f : ι → EReal) :
    a * ∑ i ∈ s, f i = ∑ i ∈ s, a * f i := by
  classical
  induction s using Finset.induction_on with
  | empty => simp
  | insert x s hx ih =>
    rw [Finset.sum_insert hx, Finset.sum_insert hx, EReal.left_distrib_of_nonneg_of_ne_top ha ht, ih]

/-- Among the appended self-loops, exactly the one of node `i` lands on row `i`. -/
theorem sum_loops {N : ℕ} (g : Fin N → EReal) (i : Fin N) :
    (∑ l : Fin N, if ((l.val : ℤ)) = (i.val : ℤ) then g l else 0) = g i := by
  have h : ∀ l : Fin N, (((l.val : ℤ)) = (i.val : ℤ)) ↔ l = i := fun l =>
    ⟨fun h => Fin.ext (by exact_mod_cast h), fun h => by rw [h]⟩
  simp only [h]
  rw [Finset.sum_ite_eq' Finset.univ i g, if_pos (Finset.mem_univ i)]

/-- The degree counted over the edge list with one self-loop per node appended is the degree counted over the edges,
    plus one. (`one` is whatever each entry contributes: the same constant on both sides.) -/
theorem degree_law {E N : ℕ} (one : EReal) (dE : Fin E → ℤ) (dstI : Fin (E + N) → ℤ)
    (hdE : ∀ e, dstI (Fin.castAdd N e) = dE e) (hdL : ∀ l : Fin N, dstI (Fin.natAdd E l) = (l.val : ℤ)) (i : Fin N) :
    (0 + ∑ r : Fin (E + N), if dstI r = (i.val : ℤ) then one else 0)
      = (0 + ∑ e : Fin E, if dE e = (i.val : ℤ) then one else 0) + one := by
  rw [Fin.sum_univ_add]
  simp only [hdE, hdL]
  rw [sum_loops (fun _ => one) i, add_assoc]

/-- THE LAYER LAW, one column: summing over edges AND appended self-loops the messages scaled by both endpoints' factors
    equals the target's factor times (the edge messages scaled by the source's factor, plus the node's own scaled
    feature). `srcC`, `dstC` are the rows the appended list's entries read (clamped into range), `dstI` the signed row an
    entry is added to; on an edge they are the edge's, and an edge that lands on row `i` reads row `i`'s factor; on a
    self-loop all three are the node itself. -/
theorem layer_law {E N : ℕ} (d : Fin N → EReal) (hd0 : ∀ n, 0 ≤ d n) (hdt : ∀ n, d n ≠ ⊤)
    (sE : Fin E → Fin N) (dE : Fin E → ℤ)
    (srcC dstC : Fin (E + N) → Fin N) (dstI : Fin (E + N) → ℤ)
    (hsE : ∀ e, srcC (Fin.castAdd N e) = sE e) (hdE : ∀ e, dstI (Fin.castAdd N e) = dE e)
    (hcE : ∀ e (i : Fin N), dE e = (i.val : ℤ) → dstC (Fin.castAdd N e) = i)
    (hsL : ∀ l : Fin N, srcC (Fin.natAdd E l) = l) (hdL : ∀ l : Fin N, dstI (Fin.natAdd E l) = (l.val : ℤ))
    (hcL : ∀ l : Fin N, dstC (Fin.natAdd E l) = l)
    (hw : Fin N → EReal) (b : EReal) (i : Fin N) :
    (0 + ∑ r : Fin (E + N), if dstI r = (i.val : ℤ) then hw (srcC r) * (d (srcC r) * d (dstC r)) else 0) + b
      = d i * ((0 + ∑ e : Fin E, if dE e = (i.val : ℤ) then hw (sE e) * d (sE e) else 0) + hw i * d i) + b := by
  congr 1
  rw [Fin.sum_univ_add]
  simp only [hsE, hdE, hsL, hdL, hcL]
  rw [sum_loops (fun l => hw l * (d l * d l)) i, zero_add, zero_add,
    EReal.left_distrib_of_nonneg_of_ne_top (hd0 i) (hdt i), mul_sum_of_nonneg_of_ne_top _ _ (hd0 i) (hdt i)]
  congr 1
  · refine Finset.sum_congr rfl fun e _ => ?_
    by_cases h : dE e = (i.val : ℤ)
    · rw [if_pos h, if_pos h, hcE e i h, ← mul_assoc, mul_comm (d i)]
    · rw [if_neg h, if_neg h, mul_zero]
  · rw [← mul_assoc, mul_comm (d i)]

/-- The inverse square root at a real: junk below zero, `+∞` at zero, otherwise the real `1 / √r`. -/
theorem rsqrt_coe (r : ℝ) :
    Ideal.rsqrt ((r : ℝ) : EReal) = if r < 0 then ⊥ else if r = 0 then ⊤ else (((Real.sqrt r)⁻¹ : ℝ) : EReal) := rfl

/-- The inverse square root of an extended real raised to at least one is nonnegative and finite: at `+∞` it is zero,
    and at a real `r ≥ 1` it is the real `1 / √r`. -/
theorem rsqrt_max_one (x one : EReal) (hone : one = 1) :
    0 ≤ Ideal.rsqrt (max x one) ∧ Ideal.rsqrt (max x one) ≠ ⊤ := by
  subst hone
  have key : ∀ r : ℝ, 0 < r → 0 ≤ Ideal.rsqrt ((r : ℝ) : EReal) ∧ Ideal.rsqrt ((r : ℝ) : EReal) ≠ ⊤ := fun r hp => by
    rw [rsqrt_coe, if_neg (not_lt.mpr hp.le), if_neg hp.ne']
    exact ⟨by exact_mod_cast (inv_nonneg.mpr (Real.sqrt_nonneg r)), EReal.coe_ne_top _⟩
  induction x using EReal.rec with
  | bot =>
    rw [max_eq_right bot_le]
    exact key 1 one_pos
  | top =>
    rw [max_eq_left le_top]
    exact ⟨le_of_eq (show (0 : EReal) = Ideal.rsqrt ⊤ from rfl), by
      rw [show Ideal.rsqrt ⊤ = (0 : EReal) from rfl]; exact EReal.zero_ne_top⟩
  | coe r =>
    have h1 : max ((r : ℝ) : EReal) 1 = ((max r 1 : ℝ) : EReal) := by
      rcases le_total r 1 with h | h
      · rw [max_eq_right h, max_eq_right (by exact_mod_cast h)]; rfl
      · rw [max_eq_left h, max_eq_left (by exact_mod_cast h)]
    rw [h1]
    exact key _ (lt_of_lt_of_le one_pos (le_max_right r 1))

/-! ## The two programs' common value, one entry at a time

`N` nodes, `E` edges; `dE e` is edge `e`'s target read as a signed integer (an edge whose target is no node lands nowhere),
`sE e` the row its source reads (already brought into range). -/

/-- A node's degree: one per edge into it, plus one (`one` is the constant each entry contributes). -/
def degAt {E N : ℕ} (one : EReal) (dE : Fin E → ℤ) (i : Fin N) : EReal :=
  (0 + ∑ e : Fin E, if dE e = (i.val : ℤ) then one else 0) + one

/-- A node's factor: the inverse square root of its degree raised to at least one, where the degree is positive; else zero. -/
def dinvAt {E N : ℕ} (one : EReal) (dE : Fin E → ℤ) (i : Fin N) : EReal :=
  Scalar.select (Ideal.cmp .ogt (degAt one dE i) 0) (Ideal.rsqrt (max (degAt one dE i) one)) 0

/-- One layer, one column: the target's factor times (the edges' messages scaled by their sources' factors, plus the node's
    own scaled feature), plus the bias. `hw n` is the transformed feature of node `n` in this column. -/
def layerAt {E N : ℕ} (d : Fin N → EReal) (sE : Fin E → Fin N) (dE : Fin E → ℤ) (hw : Fin N → EReal) (b : EReal) (i : Fin N) : EReal :=
  d i * ((0 + ∑ e : Fin E, if dE e = (i.val : ℤ) then hw (sE e) * d (sE e) else 0) + hw i * d i) + b

/-- The factor is nonnegative and finite at every node. -/
theorem dinvAt_bounds {E N : ℕ} (one : EReal) (hone : one = 1) (dE : Fin E → ℤ) (i : Fin N) :
    0 ≤ dinvAt one dE i ∧ dinvAt one dE i ≠ ⊤ := by
  unfold dinvAt Scalar.select
  split
  · exact rsqrt_max_one _ _ hone
  · exact ⟨le_refl _, EReal.zero_ne_top⟩

end Cert.Gcn

end
-- ==== Proof.IndexBits.lean ====
import Idealize.ShloMosaic.PureOps.Ideal
import Idealize.ShloMosaic.Lib.ValueIdx

/-!
# Index words: wrapping a negative index, clamping a row, and the self-loops' words

A row index arrives as a 32-bit word read as a signed integer. Both programs first wrap a negative index
(`v` becomes `v + 100000` when `v < 0`, as indexing from the end does over 100000 rows) and then read the row
`min (max v 0) 99999`: the start index clamped into the array. An update, by contrast, is added into row `i`
exactly when the unwrapped word, read signed, equals `i`. So a word that names a node `i` in `[0, 100000)` is
read at row `i` itself: it is not negative, so wrapping leaves it alone, and it is in range, so clamping leaves
it alone. The appended self-loop of node `l` carries the word of the number `l`, which names `l`.
-/

namespace Cert.Gcn

open Idealize.ShloMosaic

/-- Wrapping a negative index over 100000 rows, on one word: `v + 100000` when `v` read signed is below zero,
    else `v`. It is spelt with the word-level comparison, sum and choice that the elementwise signed
    comparison with 0, sum with 100000 and select read through to at each index. -/
def wrapBits (v : BitVec 32) : BitVec 32 :=
  Scalar.select (IntOp.cmpi .slt v 0#32) (IntOp.addi v 100000#32) v

/-- The row a start-index word reads among 100000 rows: the word read signed, brought up to zero if negative
    and down to the last row 99999 if beyond it. -/
def clampRow (v : BitVec 32) : Fin 100000 := ⟨min v.toInt.toNat (100000 - 1), by omega⟩

/-- The word of a number below 100000, read signed, is that number: it is far below `2 ^ 31`, so its top bit
    is clear. -/
theorem toInt_iota (l : Fin 100000) : (BitVec.ofNat 32 l.val).toInt = (l.val : ℤ) := by
  have hl : l.val < 100000 := l.isLt
  have hn : (BitVec.ofNat 32 l.val).toNat = l.val := by
    rw [BitVec.toNat_ofNat]
    exact Nat.mod_eq_of_lt (by omega)
  rw [BitVec.toInt_eq_toNat_of_lt (by rw [hn]; omega), hn]

/-- Wrapping leaves a word that is not negative as it is. -/
theorem wrapBits_of_nonneg (v : BitVec 32) (h : 0 ≤ v.toInt) : wrapBits v = v := by
  have hs : v.slt 0#32 = false := by
    rw [BitVec.slt_eq_decide, BitVec.toInt_zero]
    exact decide_eq_false (not_lt.mpr h)
  show (if BitVec.ofBool (v.slt 0#32) = 1 then IntOp.addi v 100000#32 else v) = v
  rw [hs]
  exact if_neg (by decide)

/-- A word that names node `i` (read signed it is `i`, a number in `[0, 100000)`) is read at row `i`: neither
    the wrap nor the clamp moves it. -/
theorem clampRow_of_toInt (v : BitVec 32) (i : Fin 100000) (h : v.toInt = (i.val : ℤ)) :
    clampRow (wrapBits v) = i := by
  have hi : i.val < 100000 := i.isLt
  rw [wrapBits_of_nonneg v (by rw [h]; exact Int.natCast_nonneg _)]
  apply Fin.ext
  show min v.toInt.toNat (100000 - 1) = i.val
  rw [h]
  omega

/-- The self-loop of node `l`, whose word is that of the number `l`, reads its own node's row. -/
theorem clampRow_iota (l : Fin 100000) : clampRow (wrapBits (BitVec.ofNat 32 l.val)) = l :=
  clampRow_of_toInt _ l (toInt_iota l)

/-- The elementwise wrap read at one index is the word-level wrap of the element there: `x` the index words,
    `z` and `h` the arrays that hold 0 and 100000 at that index. -/
theorem wrap_apply {s : Shape} (x z h : IVec s 32) (i : s.Idx) (hz : z i = 0#32) (hh : h i = 100000#32) :
    select (cmpi .slt x z) (addi x h) x i = wrapBits (x i) := by
  show Scalar.select (IntOp.cmpi .slt (x i) (z i)) (IntOp.addi (x i) (h i)) (x i) = _
  rw [hz, hh]
  rfl

end Cert.Gcn
-- ==== Proof.KernelIndex.lean ====
/-
  The stages of the idealized kernel program read at one index.

  Each stage of the program is a function of whole arrays; here each is read at one entry, in the form of the common
  entry-by-entry description of the two programs: the degree of node `i` is one per edge whose target, read as a signed
  integer, is `i`, plus one; the node factor is the inverse square root of that degree; a layer at entry `(i, j)` is
  node `i`'s factor times (the sum over the edges into `i` of the source row's scaled feature in column `j`, plus the
  node's own scaled feature), plus the column's bias. A scattered update is added where its index, read signed, names a
  row, and nowhere otherwise; a gathered row is the one its start word names after clamping into the rows. The
  remaining stages are layout: broadcasts, the joined weights and biases, the two halves of the result's columns, and
  the two rows of the edge list.
-/
import proofs.«174673_j36627481101161_2_alg».proof.Proof.KernelStages
import proofs.«174673_j36627481101161_2_alg».proof.Proof.RowOps
import proofs.«174673_j36627481101161_2_alg».proof.Proof.LayerLaw
import proofs.«174673_j36627481101161_2_alg».proof.Proof.IndexBits
import Idealize.ShloMosaic.Lib.ValueIdx
import Idealize.ShloMosaic.Lib.Pipeline.Value
import Idealize.ShloMosaic.PureOps.Ideal.Laws

noncomputable section

open scoped BigOperators

namespace Cert.KernelIdeal.Index

open Cert.KernelIdeal Cert.KernelIdeal.Gen Cert.KernelIdeal.Fold Cert.RowOps
open Idealize.ShloMosaic Idealize.ShloMosaic.TcCoe Idealize.ShloMosaic.ValueIdx

/-! ## Broadcasts read at an index -/

section Broadcasts
variable {α : Type}

/-- A scalar laid over a whole shape reads the scalar everywhere. -/
theorem splat_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A constant laid over a whole shape reads the extended real its word encodes. -/
theorem splat_const_apply {t : Shape} (h : S_.BroadcastsInDim t (![] : Fin 0 → Fin t.rank)) (w : BitVec 32) (j : t.Idx) :
    broadcastInDim t ![] h (constant (F := Ideal) S_ .f32 w) j = Ideal.ofBits .f32 w := by
  rw [splat_apply]; rfl

/-- A per-edge vector stood up as a one-column matrix reads the vector at the row. -/
theorem column_apply (x : S1600000.Idx → α) (e : Fin 1600000) :
    broadcastInDim S1600000x1 ![0] bcast_S1600000_S1600000x1_0 x (ix2 e (0 : Fin 1)) = x (ix1 e) :=
  broadcastInDim_apply _ bcast_S1600000_S1600000x1_0 x (ix2 e (0 : Fin 1)) (ix1 e) (fun a => match a with
    | ⟨0, _⟩ => by show e.val = if (1600000 : Nat) = 1 then 0 else e.val; rw [if_neg (by decide)])

end Broadcasts

/-- The node factor laid along the columns reads the node's factor in every column. -/
theorem cols_apply (d : VF S100000) (i : Fin 100000) (j : Fin 128) : cols d (ix2 i j) = d (ix1 i) := by
  unfold cols
  refine (broadcastInDim_apply _ bcast_S100000x1_S100000x128_0_1 _ (ix2 i j) (ix2 i (0 : Fin 1)) (fun a => match a with
    | ⟨0, _⟩ => by show i.val = if (100000 : Nat) = 1 then 0 else i.val; rw [if_neg (by decide)]
    | ⟨1, _⟩ => by show 0 = if (1 : Nat) = 1 then 0 else j.val; rw [if_pos rfl])).trans ?_
  exact broadcastInDim_apply _ bcast_S100000_S100000x1_0 d (ix2 i (0 : Fin 1)) (ix1 i) (fun a => match a with
    | ⟨0, _⟩ => by show i.val = if (100000 : Nat) = 1 then 0 else i.val; rw [if_neg (by decide)])

/-- The bias laid along the rows reads the column's bias in every row. -/
theorem bias_apply (b : VF S128) (i : Fin 100000) (j : Fin 128) :
    broadcastInDim S100000x128 ![0, 1] bcast_S1x128_S100000x128_0_1 (broadcastInDim S1x128 ![1] bcast_S128_S1x128_1 b) (ix2 i j)
      = b (ix1 j) := by
  refine (broadcastInDim_apply _ bcast_S1x128_S100000x128_0_1 _ (ix2 i j) (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-! ## One layer read at an entry -/

/-- The gather of rows at the edges' start words `v`, read at `(r, j)`: column `j` of the row that edge `r`'s word
    names, read signed and clamped into the rows. -/
theorem gather_rows_apply (x : VF S100000x128) (v : VI S1600000) (r : Fin 1600000) (j : Fin 128) :
    Host.gather gather_S100000x128_S1600000x1_S1600000x128_1_0_n_n_0_1_1128 x
        (broadcastInDim S1600000x1 ![0] bcast_S1600000_S1600000x1_0 v) (ix2 r j)
      = x (ix2 (Cert.Gcn.clampRow (v (ix1 r))) j) := by
  rw [show gather_S100000x128_S1600000x1_S1600000x128_1_0_n_n_0_1_1128
      = rowGather2 100000 1600000 128 gather_S100000x128_S1600000x1_S1600000x128_1_0_n_n_0_1_1128_wf from rfl,
    gather_rows2_apply (by decide)]
  refine congrArg (fun a => x (ix2 a j)) (Fin.ext ?_)
  show min (broadcastInDim S1600000x1 ![0] bcast_S1600000_S1600000x1_0 v (ix2 r (0 : Fin 1))).toInt.toNat (100000 - 1)
    = min (v (ix1 r)).toInt.toNat (100000 - 1)
  rw [column_apply]

/-- One layer at entry `(i, j)`: node `i`'s factor times (the sum, over the edges whose target read signed is `i`, of the
    source row's transformed feature in column `j` scaled by the source's factor, plus the node's own scaled feature),
    plus column `j`'s bias. The source row is the wrapped source index, read signed and clamped into the rows. -/
theorem layer_apply (d : VF S100000) (s t : VI S1600000) (ht : VF S100000x128) (b : VF S128) (i : Fin 100000) (j : Fin 128) :
    layer d s t ht b (ix2 i j)
      = Cert.Gcn.layerAt (fun n => d (ix1 n)) (fun e => Cert.Gcn.clampRow (wrap s (ix1 e))) (fun e => (t (ix1 e)).toInt)
          (fun n => ht (ix2 n j)) (b (ix1 j)) i := by
  unfold layer Host.scatterAdd
  rw [addf_apply, mulf_apply, addf_apply, mulf_apply, cols_apply, bias_apply, Ideal.hostScatterAdd_def,
    show scatter_S100000x128_S1600000x1_S1600000x128_1_0_0_1
      = rowScatter2 100000 1600000 128 scatter_S100000x128_S1600000x1_S1600000x128_1_0_0_1_wf from rfl,
    scatterAdd_rows2_apply, splat_const_apply, Ideal.ofBits_zero_f32]
  unfold Cert.Gcn.layerAt
  refine congrArg (fun S => d (ix1 i) * ((0 + S) + ht (ix2 i j) * d (ix1 i)) + b (ix1 j)) ?_
  refine Finset.sum_congr rfl fun r _ => ?_
  rw [column_apply, gather_rows_apply, mulf_apply, cols_apply]

/-! ## The degree and the node factor read at a node -/

/-- Edge `e`'s target, read as a signed integer. -/
def dE (x1 : VI S2x1600000) : Fin 1600000 → ℤ := fun e => (dst x1 (ix1 e)).toInt

/-- The degree at node `i`: one for each edge whose target read signed is `i`, plus one. -/
theorem deg_apply (x1 : VI S2x1600000) (i : Fin 100000) :
    deg x1 (ix1 i) = Cert.Gcn.degAt (Ideal.ofBits .f32 0x3F800000#32) (dE x1) i := by
  unfold deg Host.scatterAdd
  rw [addf_apply, Ideal.hostScatterAdd_def,
    show scatter_S100000_S1600000x1_S1600000_n_0_0_1
      = rowScatter1 100000 1600000 scatter_S100000_S1600000x1_S1600000_n_0_0_1_wf from rfl,
    scatterAdd_rows1_apply, splat_const_apply, splat_const_apply, Ideal.ofBits_zero_f32]
  unfold Cert.Gcn.degAt
  refine congrArg (fun S => (0 + S) + Ideal.ofBits .f32 0x3F800000#32) ?_
  refine Finset.sum_congr rfl fun r _ => ?_
  rw [column_apply, splat_const_apply]
  rfl

/-- A float comparison at the ideal instance is the extended reals' comparison. -/
theorem cmpf_ideal (p : CmpFPredicate) (a b : EReal) :
    FloatOps.cmpf (F := Ideal) (φ := .f32) p a b = Ideal.cmp p a b := rfl

/-- The host's inverse square root at an index is the ideal one of the element. -/
theorem hostRsqrt_apply {s : Shape} (v : VF s) (i : s.Idx) : Host.rsqrt v i = Ideal.rsqrt (v i) := rfl

/-- The node factor at node `i`: the inverse square root of the degree raised to at least one where the degree is
    positive, else zero. -/
theorem dinv_apply (x1 : VI S2x1600000) (i : Fin 100000) :
    dinv x1 (ix1 i) = Cert.Gcn.dinvAt (Ideal.ofBits .f32 0x3F800000#32) (dE x1) i := by
  unfold Cert.Gcn.dinvAt
  rw [← deg_apply x1 i]
  unfold dinv
  rw [select_apply, cmpf_apply, cmpf_ideal, hostRsqrt_apply, maximumf_apply, id_eq, splat_const_apply, splat_const_apply,
    Ideal.ofBits_zero_f32]

/-! ## The small stages read at an entry -/

/-- The rectifier at an entry: the larger of the entry and zero. -/
theorem relu_apply (h : VF S100000x128) (i : Fin 100000) (j : Fin 128) : relu h (ix2 i j) = max (h (ix2 i j)) 0 := by
  unfold relu
  rw [maximumf_apply, splat_const_apply, Ideal.ofBits_zero_f32]

/-- The row-by-column product at an entry. -/
theorem prod_apply (a : VF S100000x128) (w : VF S128x128) (i : Fin 100000) (j : Fin 128) :
    prod a w (ix2 i j) = ∑ k : Fin 128, a (ix2 i k) * w (ix2 k j) := rfl

/-- The joined weights' left 64 columns are the first head's … -/
theorem joinW_apply_left (a b : VF S128x64) (k : Fin 128) (j : Fin 64) :
    joinW a b (ix2 k (⟨j.val, Nat.lt_trans j.isLt (by decide)⟩ : Fin 128)) = a (ix2 k j) := by
  unfold joinW
  exact concatenate_pair_apply_left _ a b concatenates_S128x64_S128x64_S128x128_d1 _ rfl (ix2 k j)
    (fun c => match c with | ⟨0, _⟩ => rfl | ⟨1, _⟩ => rfl)

/-- … and their right 64 columns the second head's. -/
theorem joinW_apply_right (a b : VF S128x64) (k : Fin 128) (j : Fin 64) :
    joinW a b (ix2 k (⟨64 + j.val, by have := j.isLt; omega⟩ : Fin 128)) = b (ix2 k j) := by
  unfold joinW
  exact concatenate_pair_apply_right _ a b concatenates_S128x64_S128x64_S128x128_d1 _ rfl rfl (ix2 k j)
    (fun c hc => match c, hc with
      | ⟨0, _⟩, _ => rfl
      | ⟨1, _⟩, hc => absurd (Fin.ext rfl) hc)
    (by show j.val + 64 = 64 + j.val; omega)

/-- The joined biases' first 64 entries are the first head's … -/
theorem joinB_apply_left (a b : VF S64) (j : Fin 64) :
    joinB a b (ix1 (⟨j.val, Nat.lt_trans j.isLt (by decide)⟩ : Fin 128)) = a (ix1 j) := by
  unfold joinB
  exact concatenate_pair_apply_left _ a b concatenates_S64_S64_S128_d0 _ rfl (ix1 j)
    (fun c => match c with | ⟨0, _⟩ => rfl)

/-- … and their last 64 entries the second head's. -/
theorem joinB_apply_right (a b : VF S64) (j : Fin 64) :
    joinB a b (ix1 (⟨64 + j.val, by have := j.isLt; omega⟩ : Fin 128)) = b (ix1 j) := by
  unfold joinB
  exact concatenate_pair_apply_right _ a b concatenates_S64_S64_S128_d0 _ rfl rfl (ix1 j)
    (fun c hc => match c, hc with
      | ⟨0, _⟩, hc => absurd (Fin.ext rfl) hc)
    (by show j.val + 64 = 64 + j.val; omega)

/-- The first result is the second layer's left 64 columns … -/
theorem out0_apply (x0 : VF S100000x128) (x1 : VI S2x1600000) (x2 : VF S128x128) (x3 : VF S128) (x4 : VF S128x64)
    (x5 : VF S64) (x6 : VF S128x64) (x7 : VF S64) (i : Fin 100000) (j : Fin 64) :
    out0 x0 x1 x2 x3 x4 x5 x6 x7 (ix2 i j)
      = heads x0 x1 x2 x3 x4 x5 x6 x7 (ix2 i (⟨j.val, Nat.lt_trans j.isLt (by decide)⟩ : Fin 128)) := by
  unfold out0
  generalize heads x0 x1 x2 x3 x4 x5 x6 x7 = y
  exact extractStridedSlice_apply ![0, 0] y slices_S100000x128_S100000x64_0_0 (ix2 i j)
    (ix2 i (⟨j.val, Nat.lt_trans j.isLt (by decide)⟩ : Fin 128)) (fun a => match a with
    | ⟨0, _⟩ => by show i.val = 0 + i.val; omega
    | ⟨1, _⟩ => by show j.val = 0 + j.val; omega)

/-- … and the second result its right 64 columns. -/
theorem out1_apply (x0 : VF S100000x128) (x1 : VI S2x1600000) (x2 : VF S128x128) (x3 : VF S128) (x4 : VF S128x64)
    (x5 : VF S64) (x6 : VF S128x64) (x7 : VF S64) (i : Fin 100000) (j : Fin 64) :
    out1 x0 x1 x2 x3 x4 x5 x6 x7 (ix2 i j)
      = heads x0 x1 x2 x3 x4 x5 x6 x7 (ix2 i (⟨64 + j.val, by have := j.isLt; omega⟩ : Fin 128)) := by
  unfold out1
  generalize heads x0 x1 x2 x3 x4 x5 x6 x7 = y
  exact extractStridedSlice_apply ![0, 64] y slices_S100000x128_S100000x64_0_64 (ix2 i j)
    (ix2 i (⟨64 + j.val, by have := j.isLt; omega⟩ : Fin 128)) (fun a => match a with
    | ⟨0, _⟩ => by show i.val = 0 + i.val; omega
    | ⟨1, _⟩ => by show 64 + j.val = 64 + j.val; rfl)

/-- The edges' sources are row 0 of the edge list … -/
theorem src_apply (x1 : VI S2x1600000) (e : Fin 1600000) : src x1 (ix1 e) = x1 (ix2 (0 : Fin 2) e) := by
  unfold src
  refine (shapeCast_apply _ shapeCasts_S1x1600000_S1600000 (ix1 e) (ix2 (0 : Fin 1) e) ?_).trans ?_
  · rewrite [Shape.rowMajor_val_two, Shape.rowMajor_val_one]
    show 0 * 1600000 + e.val = e.val
    omega
  · exact extractStridedSlice_apply ![0, 0] x1 slices_S2x1600000_S1x1600000_0_0 (ix2 (0 : Fin 1) e) (ix2 (0 : Fin 2) e)
      (fun a => match a with
        | ⟨0, _⟩ => rfl
        | ⟨1, _⟩ => by show e.val = 0 + e.val; omega)

/-- … and their targets row 1. -/
theorem dst_apply (x1 : VI S2x1600000) (e : Fin 1600000) : dst x1 (ix1 e) = x1 (ix2 (1 : Fin 2) e) := by
  unfold dst
  refine (shapeCast_apply _ shapeCasts_S1x1600000_S1600000 (ix1 e) (ix2 (0 : Fin 1) e) ?_).trans ?_
  · rewrite [Shape.rowMajor_val_two, Shape.rowMajor_val_one]
    show 0 * 1600000 + e.val = e.val
    omega
  · exact extractStridedSlice_apply ![1, 0] x1 slices_S2x1600000_S1x1600000_1_0 (ix2 (0 : Fin 1) e) (ix2 (1 : Fin 2) e)
      (fun a => match a with
        | ⟨0, _⟩ => rfl
        | ⟨1, _⟩ => by show e.val = 0 + e.val; omega)

/-- The wrapped source index at edge `e` is the word-level wrap of the edge's source word. -/
theorem wrap_apply (s : VI S1600000) (e : Fin 1600000) : wrap s (ix1 e) = Cert.Gcn.wrapBits (s (ix1 e)) := by
  unfold wrap
  exact Cert.Gcn.wrap_apply s _ _ (ix1 e) (by rw [splat_apply]; rfl) (by rw [splat_apply]; rfl)

end Cert.KernelIdeal.Index

end
-- ==== Proof.GcnSpec.lean ====
/-
  The value both programs compute, one entry at a time, as a function of the argument arrays.

  `x1` is the edge list (row 0 the sources, row 1 the targets; `1600000` edges over `100000` nodes). An edge is ADDED into the
  row its target word names when read as a signed integer (a word naming no node lands nowhere) and READS the row its source
  word names after the wrap of a negative index and the clamp into range. With `d` the node factors (LayerLaw.lean's
  `dinvAt`), the first layer's entry `(i, j)` is `layerAt` of the product column `n ↦ ∑ₖ x0(n, k) · x2(k, j)` and the bias
  `x3(j)`; the hidden features are its positive part; and a head's entry `(i, j)` is `layerAt` of the column
  `n ↦ ∑ₖ hidden(n, k) · w(k, j)` and the bias `b(j)`, for the head's own weights `w` and bias `b`.
-/
import proofs.«174673_j36627481101161_2_alg».proof.Proof.LayerLaw
import proofs.«174673_j36627481101161_2_alg».proof.Proof.IndexBits
import Idealize.ShloMosaic.Lib.ValueIdx

noncomputable section

open scoped BigOperators

namespace Cert.Gcn

open Idealize.ShloMosaic Idealize.ShloMosaic.ValueIdx

/-- The float word of one: what each list entry contributes to a degree. -/
abbrev oneWord : EReal := Ideal.ofBits .f32 0x3F800000#32

/-- The row edge `e` is added into: its target word read signed. -/
def edgeDst (x1 : IVec ⟨2, ![2, 1600000]⟩ 32) (e : Fin 1600000) : ℤ := (x1 (ix2 (1 : Fin 2) e)).toInt
/-- The row edge `e` reads: its source word, a negative one wrapped, clamped into range. -/
def edgeSrc (x1 : IVec ⟨2, ![2, 1600000]⟩ 32) (e : Fin 1600000) : Fin 100000 := clampRow (wrapBits (x1 (ix2 (0 : Fin 2) e)))

/-- The node factors. -/
def factor (x1 : IVec ⟨2, ![2, 1600000]⟩ 32) : Fin 100000 → EReal := dinvAt oneWord (edgeDst x1)

/-- The first layer at entry `(i, j)`. -/
def firstLayerAt (x0 : FVec Ideal ⟨2, ![100000, 128]⟩ .f32) (x1 : IVec ⟨2, ![2, 1600000]⟩ 32) (x2 : FVec Ideal ⟨2, ![128, 128]⟩ .f32)
    (x3 : FVec Ideal ⟨1, ![128]⟩ .f32) (i : Fin 100000) (j : Fin 128) : EReal :=
  layerAt (factor x1) (edgeSrc x1) (edgeDst x1) (fun n => ∑ k : Fin 128, x0 (ix2 n k) * x2 (ix2 k j)) (x3 (ix1 j)) i

/-- The hidden features at entry `(i, j)`: the first layer's positive part. -/
def hiddenAt (x0 : FVec Ideal ⟨2, ![100000, 128]⟩ .f32) (x1 : IVec ⟨2, ![2, 1600000]⟩ 32) (x2 : FVec Ideal ⟨2, ![128, 128]⟩ .f32)
    (x3 : FVec Ideal ⟨1, ![128]⟩ .f32) (i : Fin 100000) (j : Fin 128) : EReal :=
  max (firstLayerAt x0 x1 x2 x3 i j) 0

/-- A head at entry `(i, j)`, for the head's weights `w` and bias `b`. -/
def headAt (x0 : FVec Ideal ⟨2, ![100000, 128]⟩ .f32) (x1 : IVec ⟨2, ![2, 1600000]⟩ 32) (x2 : FVec Ideal ⟨2, ![128, 128]⟩ .f32)
    (x3 : FVec Ideal ⟨1, ![128]⟩ .f32) (w : FVec Ideal ⟨2, ![128, 64]⟩ .f32) (b : FVec Ideal ⟨1, ![64]⟩ .f32) (i : Fin 100000) (j : Fin 64) : EReal :=
  layerAt (factor x1) (edgeSrc x1) (edgeDst x1) (fun n => ∑ k : Fin 128, hiddenAt x0 x1 x2 x3 n k * w (ix2 k j)) (b (ix1 j)) i

end Cert.Gcn

end
-- ==== Proof.KernelSpec.lean ====
/-
  The idealized kernel program's results, one entry at a time, in the common description of the two programs.

  The node factors are the common description's factors of the edge list; the rectified first layer at entry `(i, j)` is
  its hidden feature; and each result at entry `(i, j)` is the head of its own weights and bias: the second layer is
  computed once over the two heads' weights joined side by side, and the left and right halves of its columns are the
  two heads, because a column of a product depends only on that column of the right factor, and a layer's entry only
  on its own column.
-/
import proofs.«174673_j36627481101161_2_alg».proof.Proof.KernelIndex
import proofs.«174673_j36627481101161_2_alg».proof.Proof.GcnSpec

noncomputable section

open scoped BigOperators

namespace Cert.KernelIdeal.Spec

open Cert.KernelIdeal Cert.KernelIdeal.Gen Cert.KernelIdeal.Fold Cert.KernelIdeal.Index
open Idealize.ShloMosaic Idealize.ShloMosaic.TcCoe Idealize.ShloMosaic.ValueIdx

/-! ## The data the layers read, as the common description names it -/

/-- The rows the edges are added into: their target words, row 1 of the edge list, read signed. -/
theorem dstRow_eq (x1 : VI S2x1600000) : (fun e => (dst x1 (ix1 e)).toInt) = Cert.Gcn.edgeDst x1 := by
  funext e
  unfold Cert.Gcn.edgeDst
  rw [dst_apply]

/-- The same, for the name the degree is stated with. -/
theorem dE_eq (x1 : VI S2x1600000) : dE x1 = Cert.Gcn.edgeDst x1 := by
  unfold dE
  exact dstRow_eq x1

/-- The rows the edges read: their source words, row 0 of the edge list, wrapped and clamped. -/
theorem srcRow_eq (x1 : VI S2x1600000) :
    (fun e => Cert.Gcn.clampRow (wrap (src x1) (ix1 e))) = Cert.Gcn.edgeSrc x1 := by
  funext e
  unfold Cert.Gcn.edgeSrc
  rw [wrap_apply, src_apply]

/-- The node factors are the common description's. -/
theorem factor_eq (x1 : VI S2x1600000) : (fun n => dinv x1 (ix1 n)) = Cert.Gcn.factor x1 := by
  funext n
  unfold Cert.Gcn.factor
  rw [dinv_apply, dE_eq]

/-- A column of a product, node by node. -/
theorem prodCol_eq (a : VF S100000x128) (w : VF S128x128) (j : Fin 128) :
    (fun n => prod a w (ix2 n j)) = fun n => ∑ k : Fin 128, a (ix2 n k) * w (ix2 k j) :=
  funext fun n => prod_apply a w n j

/-! ## The hidden features and the two results -/

/-- The rectified first layer at entry `(i, j)` is the hidden feature there. -/
theorem hidden_at (x0 : VF S100000x128) (x1 : VI S2x1600000) (x2 : VF S128x128) (x3 : VF S128) (i : Fin 100000)
    (j : Fin 128) : Fold.hidden x0 x1 x2 x3 (ix2 i j) = Cert.Gcn.hiddenAt x0 x1 x2 x3 i j := by
  unfold Fold.hidden Cert.Gcn.hiddenAt Cert.Gcn.firstLayerAt
  rw [relu_apply, layer_apply, factor_eq, srcRow_eq, dstRow_eq, prodCol_eq]

/-- The first result at entry `(i, j)` is the head of the first head's weights and bias: column `j` of the joined
    weights and entry `j` of the joined biases are the first head's. -/
theorem out0_at (x0 : VF S100000x128) (x1 : VI S2x1600000) (x2 : VF S128x128) (x3 : VF S128) (x4 : VF S128x64)
    (x5 : VF S64) (x6 : VF S128x64) (x7 : VF S64) (i : Fin 100000) (j : Fin 64) :
    out0 x0 x1 x2 x3 x4 x5 x6 x7 (ix2 i j) = Cert.Gcn.headAt x0 x1 x2 x3 x4 x5 i j := by
  have hcol : (fun n => prod (Fold.hidden x0 x1 x2 x3) (joinW x4 x6)
        (ix2 n (⟨j.val, Nat.lt_trans j.isLt (by decide)⟩ : Fin 128)))
      = fun n => ∑ k : Fin 128, Cert.Gcn.hiddenAt x0 x1 x2 x3 n k * x4 (ix2 k j) := by
    funext n
    rw [prod_apply]
    refine Finset.sum_congr rfl fun k _ => ?_
    rw [hidden_at, joinW_apply_left]
  rw [out0_apply]
  unfold heads Cert.Gcn.headAt
  rw [layer_apply, factor_eq, srcRow_eq, dstRow_eq, joinB_apply_left, hcol]

/-- The second result at entry `(i, j)` is the head of the second head's weights and bias: column `64 + j` of the
    joined weights and entry `64 + j` of the joined biases are the second head's. -/
theorem out1_at (x0 : VF S100000x128) (x1 : VI S2x1600000) (x2 : VF S128x128) (x3 : VF S128) (x4 : VF S128x64)
    (x5 : VF S64) (x6 : VF S128x64) (x7 : VF S64) (i : Fin 100000) (j : Fin 64) :
    out1 x0 x1 x2 x3 x4 x5 x6 x7 (ix2 i j) = Cert.Gcn.headAt x0 x1 x2 x3 x6 x7 i j := by
  have hcol : (fun n => prod (Fold.hidden x0 x1 x2 x3) (joinW x4 x6)
        (ix2 n (⟨64 + j.val, by have := j.isLt; omega⟩ : Fin 128)))
      = fun n => ∑ k : Fin 128, Cert.Gcn.hiddenAt x0 x1 x2 x3 n k * x6 (ix2 k j) := by
    funext n
    rw [prod_apply]
    refine Finset.sum_congr rfl fun k _ => ?_
    rw [hidden_at, joinW_apply_right]
  rw [out1_apply]
  unfold heads Cert.Gcn.headAt
  rw [layer_apply, factor_eq, srcRow_eq, dstRow_eq, joinB_apply_right, hcol]

end Cert.KernelIdeal.Spec

end
-- ==== Proof.RefWords.lean ====
/-
  The idealized reference program's index words. The reference appends one self-loop per node to the edge list
  (`1600000` edges, then `100000` loops). Here the appended lists are read at one entry — on an edge the edge list's
  word, on a loop the node's own number — and so are the index vectors its gathers (wrapped words) and its scatters
  (raw words) read.
-/
import proofs.«174673_j36627481101161_2_alg».proof.Proof.RefRead
import proofs.«174673_j36627481101161_2_alg».proof.Proof.RowOps
import proofs.«174673_j36627481101161_2_alg».proof.Proof.IndexBits
import proofs.«174673_j36627481101161_2_alg».proof.Proof.LayerLaw
import proofs.«174673_j36627481101161_2_alg».proof.Proof.GcnSpec
import Idealize.ShloMosaic.Lib.Pipeline.Value
import Idealize.ShloMosaic.Lib.ValueIdx
import Idealize.ShloMosaic.PureOps.Ideal.Laws

noncomputable section

open scoped BigOperators

namespace Cert.ReferenceIdeal.Index

open Cert.ReferenceIdeal Cert.ReferenceIdeal.Gen Cert.ReferenceIdeal.ReadP
open Idealize.ShloMosaic Idealize.ShloMosaic.ValueIdx Cert.RowOps Cert.Gcn

variable (x1 : IVec S2x1600000 32)

/-! ## The appended lists' words -/

/-- Entry `r`'s source word and target word in the lists with the self-loops appended. -/
def srcW (r : Fin 1700000) : BitVec 32 := val_main_v3 (F := Ideal) x1 (ix1 r)
def dstW (r : Fin 1700000) : BitVec 32 := val_main_v6 (F := Ideal) x1 (ix1 r)

/-- On an edge the source word is the edge list's row 0. -/
theorem srcW_edge (e : Fin 1600000) : srcW x1 (Fin.castAdd 100000 e) = x1 (ix2 (0 : Fin 2) e) := by
  unfold srcW val_main_v3
  rw [concatenate_pair_apply_left (0 : Fin S1700000.rank) (val_main_v2 (F := Ideal) x1) (val_main_v0 (F := Ideal))
    concatenates_S1600000_S100000_S1700000_d0 (ix1 (Fin.castAdd 100000 e) : S1700000.Idx) rfl (ix1 e : S1600000.Idx)
    (fun b => by match b with | ⟨0, _⟩ => rfl)]
  rw [val_main_v2_apply, val_main_v1_apply]
  refine congrArg x1 (funext fun a => Fin.ext ?_)
  match a with
  | ⟨0, _⟩ => rfl
  | ⟨1, _⟩ => exact Nat.mod_eq_of_lt e.isLt

/-- On an edge the target word is the edge list's row 1. -/
theorem dstW_edge (e : Fin 1600000) : dstW x1 (Fin.castAdd 100000 e) = x1 (ix2 (1 : Fin 2) e) := by
  unfold dstW val_main_v6
  rw [concatenate_pair_apply_left (0 : Fin S1700000.rank) (val_main_v5 (F := Ideal) x1) (val_main_v0 (F := Ideal))
    concatenates_S1600000_S100000_S1700000_d0 (ix1 (Fin.castAdd 100000 e) : S1700000.Idx) rfl (ix1 e : S1600000.Idx)
    (fun b => by match b with | ⟨0, _⟩ => rfl)]
  rw [val_main_v5_apply, val_main_v4_apply]
  refine congrArg x1 (funext fun a => Fin.ext ?_)
  match a with
  | ⟨0, _⟩ => rfl
  | ⟨1, _⟩ => exact Nat.mod_eq_of_lt e.isLt

/-- On a self-loop both words are the node's own number. -/
theorem srcW_loop (l : Fin 100000) : srcW x1 (Fin.natAdd 1600000 l) = BitVec.ofNat 32 l.val := by
  unfold srcW val_main_v3
  rw [concatenate_pair_apply_right (0 : Fin S1700000.rank) (val_main_v2 (F := Ideal) x1) (val_main_v0 (F := Ideal))
    concatenates_S1600000_S100000_S1700000_d0 (ix1 (Fin.natAdd 1600000 l) : S1700000.Idx) rfl rfl (ix1 l : S100000.Idx)
    (fun b hb => by match b with | ⟨0, _⟩ => exact absurd rfl hb) (by show l.val + 1600000 = 1600000 + l.val; omega)]
  rfl
theorem dstW_loop (l : Fin 100000) : dstW x1 (Fin.natAdd 1600000 l) = BitVec.ofNat 32 l.val := by
  unfold dstW val_main_v6
  rw [concatenate_pair_apply_right (0 : Fin S1700000.rank) (val_main_v5 (F := Ideal) x1) (val_main_v0 (F := Ideal))
    concatenates_S1600000_S100000_S1700000_d0 (ix1 (Fin.natAdd 1600000 l) : S1700000.Idx) rfl rfl (ix1 l : S100000.Idx)
    (fun b hb => by match b with | ⟨0, _⟩ => exact absurd rfl hb) (by show l.val + 1600000 = 1600000 + l.val; omega)]
  rfl

/-- The row an entry is ADDED to (its target word read signed; no wrap, no clamp: a word naming no node lands nowhere),
    and the rows its source and its target are READ at (wrapped, then clamped into range). -/
def dstI (r : Fin 1700000) : ℤ := (dstW x1 r).toInt
def srcC (r : Fin 1700000) : Fin 100000 := clampRow (wrapBits (srcW x1 r))
def dstC (r : Fin 1700000) : Fin 100000 := clampRow (wrapBits (dstW x1 r))

theorem srcC_edge (e : Fin 1600000) : srcC x1 (Fin.castAdd 100000 e) = edgeSrc x1 e := by unfold srcC edgeSrc; rw [srcW_edge]
theorem dstI_edge (e : Fin 1600000) : dstI x1 (Fin.castAdd 100000 e) = edgeDst x1 e := by unfold dstI edgeDst; rw [dstW_edge]
theorem dstC_edge (e : Fin 1600000) (i : Fin 100000) (h : edgeDst x1 e = (i.val : ℤ)) : dstC x1 (Fin.castAdd 100000 e) = i := by
  unfold dstC; rw [dstW_edge]; exact clampRow_of_toInt _ i h
theorem srcC_loop (l : Fin 100000) : srcC x1 (Fin.natAdd 1600000 l) = l := by unfold srcC; rw [srcW_loop]; exact clampRow_iota l
theorem dstC_loop (l : Fin 100000) : dstC x1 (Fin.natAdd 1600000 l) = l := by unfold dstC; rw [dstW_loop]; exact clampRow_iota l
theorem dstI_loop (l : Fin 100000) : dstI x1 (Fin.natAdd 1600000 l) = (l.val : ℤ) := by unfold dstI; rw [dstW_loop]; exact toInt_iota l

/-! ## The index vectors the gathers and scatters read -/

/-- The scatters' index vector at entry `r` is the raw target word. -/
theorem v9_at (r : Fin 1700000) : val_main_v9 (F := Ideal) x1 (ix2 r (0 : Fin 1)) = dstW x1 r := by
  have h : idx_main_v9 (ix2 r (0 : Fin 1)) = ix1 r := funext fun a => by match a with | ⟨0, _⟩ => rfl
  rw [val_main_v9_apply, h]; rfl
theorem v44_at (r : Fin 1700000) : val_main_v44 (F := Ideal) x1 (ix2 r (0 : Fin 1)) = dstW x1 r := by
  have h : idx_main_v44 (ix2 r (0 : Fin 1)) = ix1 r := funext fun a => by match a with | ⟨0, _⟩ => rfl
  rw [val_main_v44_apply, h]; rfl
theorem v61_at (r : Fin 1700000) : val_main_v61 (F := Ideal) x1 (ix2 r (0 : Fin 1)) = dstW x1 r := by
  have h : idx_main_v61 (ix2 r (0 : Fin 1)) = ix1 r := funext fun a => by match a with | ⟨0, _⟩ => rfl
  rw [val_main_v61_apply, h]; rfl
theorem v77_at (r : Fin 1700000) : val_main_v77 (F := Ideal) x1 (ix2 r (0 : Fin 1)) = dstW x1 r := by
  have h : idx_main_v77 (ix2 r (0 : Fin 1)) = ix1 r := funext fun a => by match a with | ⟨0, _⟩ => rfl
  rw [val_main_v77_apply, h]; rfl

/-- The gathers' index vectors at entry `r` are the wrapped source word (four spellings of one vector) and the wrapped target word. -/
theorem v22_at (r : Fin 1700000) : val_main_v22 (F := Ideal) x1 (ix2 r (0 : Fin 1)) = wrapBits (srcW x1 r) := by
  have h : idx_main_v22 (ix2 r (0 : Fin 1)) = ix1 r := funext fun a => by match a with | ⟨0, _⟩ => rfl
  rw [val_main_v22_apply, h, val_main_v21_apply, val_main_v18_apply, val_main_v20_apply, val_main_v17_apply, val_main_v19_apply,
    val_main_c_apply, val_main_c_4_apply]
  rfl
theorem v29_at (r : Fin 1700000) : val_main_v29 (F := Ideal) x1 (ix2 r (0 : Fin 1)) = wrapBits (dstW x1 r) := by
  have h : idx_main_v29 (ix2 r (0 : Fin 1)) = ix1 r := funext fun a => by match a with | ⟨0, _⟩ => rfl
  rw [val_main_v29_apply, h, val_main_v28_apply, val_main_v25_apply, val_main_v27_apply, val_main_v24_apply, val_main_v26_apply,
    val_main_c_5_apply, val_main_c_6_apply]
  rfl
theorem v39_at (r : Fin 1700000) : val_main_v39 (F := Ideal) x1 (ix2 r (0 : Fin 1)) = wrapBits (srcW x1 r) := by
  have h : idx_main_v39 (ix2 r (0 : Fin 1)) = ix1 r := funext fun a => by match a with | ⟨0, _⟩ => rfl
  rw [val_main_v39_apply, h, val_main_v38_apply, val_main_v35_apply, val_main_v37_apply, val_main_v34_apply, val_main_v36_apply,
    val_main_c_7_apply, val_main_c_8_apply]
  rfl
theorem v56_at (r : Fin 1700000) : val_main_v56 (F := Ideal) x1 (ix2 r (0 : Fin 1)) = wrapBits (srcW x1 r) := by
  have h : idx_main_v56 (ix2 r (0 : Fin 1)) = ix1 r := funext fun a => by match a with | ⟨0, _⟩ => rfl
  rw [val_main_v56_apply, h, val_main_v55_apply, val_main_v52_apply, val_main_v54_apply, val_main_v51_apply, val_main_v53_apply,
    val_main_c_10_apply, val_main_c_11_apply]
  rfl
theorem v72_at (r : Fin 1700000) : val_main_v72 (F := Ideal) x1 (ix2 r (0 : Fin 1)) = wrapBits (srcW x1 r) := by
  have h : idx_main_v72 (ix2 r (0 : Fin 1)) = ix1 r := funext fun a => by match a with | ⟨0, _⟩ => rfl
  rw [val_main_v72_apply, h, val_main_v71_apply, val_main_v68_apply, val_main_v70_apply, val_main_v67_apply, val_main_v69_apply,
    val_main_c_13_apply, val_main_c_14_apply]
  rfl

end Cert.ReferenceIdeal.Index

end
-- ==== Proof.RefFactor.lean ====
/-
  The idealized reference program's degree and node factor at a node: the degree is the sum of one over the appended
  list's entries whose target word names the node — the edges into it and its own loop —, and the factor is
  `where(deg > 0, rsqrt(max(deg, 1)), 0)`: the shared form of LayerLaw.lean.
-/
import proofs.«174673_j36627481101161_2_alg».proof.Proof.RefRead
import proofs.«174673_j36627481101161_2_alg».proof.Proof.RefWords
import proofs.«174673_j36627481101161_2_alg».proof.Proof.RowOps
import proofs.«174673_j36627481101161_2_alg».proof.Proof.IndexBits
import proofs.«174673_j36627481101161_2_alg».proof.Proof.LayerLaw
import proofs.«174673_j36627481101161_2_alg».proof.Proof.GcnSpec
import Idealize.ShloMosaic.Lib.Pipeline.Value
import Idealize.ShloMosaic.Lib.ValueIdx
import Idealize.ShloMosaic.PureOps.Ideal.Laws

noncomputable section

open scoped BigOperators

namespace Cert.ReferenceIdeal.Index

open Cert.ReferenceIdeal Cert.ReferenceIdeal.Gen Cert.ReferenceIdeal.ReadP
open Idealize.ShloMosaic Idealize.ShloMosaic.ValueIdx Cert.RowOps Cert.Gcn

variable (x1 : IVec S2x1600000 32)

/-! ## The degree and the node factor -/

/-- A node's degree is the sum, over the entries whose target word names it, of one. -/
theorem deg_at (i : Fin 100000) :
    val_main_v10 (F := Ideal) x1 (ix1 i) = 0 + ∑ r : Fin 1700000, if dstI x1 r = (i.val : ℤ) then oneWord else 0 := by
  rw [val_main_v10, Host.scatterAdd, Ideal.hostScatterAdd_def,
    show scatter_S100000_S1700000x1_S1700000_n_0_0_1
      = rowScatter1 100000 1700000 scatter_S100000_S1700000x1_S1700000_n_0_0_1_wf from rfl,
    scatterAdd_rows1_apply, val_main_v8_apply, val_main_cst_0_apply, Ideal.ofBits_def, Ideal.ofBits_zero_f32]
  refine congrArg (fun s : EReal => 0 + s) (Finset.sum_congr rfl fun r _ => ?_)
  rw [v9_at, val_main_v7_apply, val_main_cst_apply, Ideal.ofBits_def, dstI]

/-- A node's factor in the shared form: the reference's degree is the edges' count plus the node's own loop. -/
theorem dinv_at (i : Fin 100000) : val_main_v16 (F := Ideal) x1 (ix1 i) = dinvAt oneWord (edgeDst x1) i := by
  have hdeg : val_main_v10 (F := Ideal) x1 (ix1 i) = degAt oneWord (edgeDst x1) i := by
    rw [deg_at, degAt]
    exact degree_law (E := 1600000) (N := 100000) oneWord (edgeDst x1) (dstI x1) (dstI_edge x1) (dstI_loop x1) i
  rw [val_main_v16_apply, val_main_v12_apply, val_main_v15_apply, val_main_v14_apply, val_main_v11_apply, val_main_v13_apply,
    val_main_call0_v1_apply, val_main_call0_v0_apply, val_main_cst_1_apply, val_main_cst_2_apply, val_main_cst_3_apply, hdeg,
    Ideal.ofBits_def, Ideal.ofBits_def, Ideal.ofBits_zero_f32, Ideal.cmpf_def, Ideal.maximumf_def,
    Ideal.hostUnary_rsqrt_def, dinvAt]

end Cert.ReferenceIdeal.Index

end
-- ==== Proof.RefLayers.lean ====
/-
  The idealized reference program's layers at an entry: `segment_sum((h @ W)[src] · (dinv[src] · dinv[dst]), dst) + b`
  over all `1700000` entries of the appended lists is, at row `i` and column `j`, the sum over the entries landing on row
  `i` of the gathered product entry times both endpoints' factors, plus the bias; by the layer law that is the shared
  form of LayerLaw.lean.
-/
import proofs.«174673_j36627481101161_2_alg».proof.Proof.RefRead
import proofs.«174673_j36627481101161_2_alg».proof.Proof.RefWords
import proofs.«174673_j36627481101161_2_alg».proof.Proof.RefFactor
import proofs.«174673_j36627481101161_2_alg».proof.Proof.RowOps
import proofs.«174673_j36627481101161_2_alg».proof.Proof.IndexBits
import proofs.«174673_j36627481101161_2_alg».proof.Proof.LayerLaw
import proofs.«174673_j36627481101161_2_alg».proof.Proof.GcnSpec
import Idealize.ShloMosaic.Lib.Pipeline.Value
import Idealize.ShloMosaic.Lib.ValueIdx
import Idealize.ShloMosaic.PureOps.Ideal.Laws

noncomputable section

open scoped BigOperators

namespace Cert.ReferenceIdeal.Index

open Cert.ReferenceIdeal Cert.ReferenceIdeal.Gen Cert.ReferenceIdeal.ReadP
open Idealize.ShloMosaic Idealize.ShloMosaic.ValueIdx Cert.RowOps Cert.Gcn

/-! ## A row gather whose start word is known -/

section Clamp
variable {α : Type}

/-- A gather of rows from a vector of 100000 entries whose start word at `r` is `v` reads entry `clampRow v`. -/
theorem gather_rows1_clamp {R : Nat}
    (wf : GatherDims.WF ⟨1, ![100000]⟩ ⟨2, ![R, 1]⟩ ⟨1, ![R]⟩ [] [0] [] [0] [] 1 ![1])
    (x : (⟨1, ![100000]⟩ : Shape).Idx → α) (idx : IVec ⟨2, ![R, 1]⟩ 32) (r : Fin R) (v : BitVec 32)
    (hv : idx (ix2 r (0 : Fin 1)) = v) :
    Host.gather (rowGather1 100000 R wf) x idx (ix1 r) = x (ix1 (clampRow v)) := by
  subst hv
  exact gather_rows1_apply (by norm_num) wf x idx r

/-- A gather of rows from a matrix of 100000 rows whose start word at `r` is `v` reads row `clampRow v`. -/
theorem gather_rows2_clamp {R D : Nat}
    (wf : GatherDims.WF ⟨2, ![100000, D]⟩ ⟨2, ![R, 1]⟩ ⟨2, ![R, D]⟩ [1] [0] [] [0] [] 1 ![1, D])
    (x : (⟨2, ![100000, D]⟩ : Shape).Idx → α) (idx : IVec ⟨2, ![R, 1]⟩ 32) (r : Fin R) (b : Fin D) (v : BitVec 32)
    (hv : idx (ix2 r (0 : Fin 1)) = v) :
    Host.gather (rowGather2 100000 R D wf) x idx (ix2 r b) = x (ix2 (clampRow v) b) := by
  subst hv
  exact gather_rows2_apply (by norm_num) wf x idx r b

end Clamp

variable (x1 : IVec S2x1600000 32)

/-! ## The layers -/

variable (x0 : FVec Ideal S100000x128 .f32) (x2 : FVec Ideal S128x128 .f32) (x3 : FVec Ideal S128 .f32)
  (x4 : FVec Ideal S128x64 .f32) (x5 : FVec Ideal S64 .f32) (x6 : FVec Ideal S128x64 .f32) (x7 : FVec Ideal S64 .f32)

/-- The reference's node factor at a node. -/
def dR (n : Fin 100000) : EReal := val_main_v16 (F := Ideal) x1 (ix1 n)

/-- The edge normalisation at entry `r`: the product of the factors at the rows its two words read. -/
theorem norm_at (r : Fin 1700000) : val_main_v31 (F := Ideal) x1 (ix1 r) = dR x1 (srcC x1 r) * dR x1 (dstC x1 r) := by
  rw [val_main_v31_apply, Ideal.mulf_def, val_main_v23, val_main_v30,
    show gather_S100000_S1700000x1_S1700000_n_0_n_n_0_1_1
      = rowGather1 100000 1700000 gather_S100000_S1700000x1_S1700000_n_0_n_n_0_1_1_wf from rfl,
    gather_rows1_clamp _ _ _ r _ (v22_at x1 r), gather_rows1_clamp _ _ _ r _ (v29_at x1 r), dR, dR, srcC, dstC]

/-- The normalisation laid along the columns. -/
theorem v41_at (r : Fin 1700000) (j : Fin 128) : val_main_v41 (F := Ideal) x1 (ix2 r j) = val_main_v31 (F := Ideal) x1 (ix1 r) := by
  have h : idx_main_v32 (idx_main_v41 (ix2 r j)) = ix1 r := funext fun a => by match a with | ⟨0, _⟩ => rfl
  rw [val_main_v41_apply, val_main_v32_apply, h]
theorem v58_at (r : Fin 1700000) (j : Fin 64) : val_main_v58 (F := Ideal) x1 (ix2 r j) = val_main_v31 (F := Ideal) x1 (ix1 r) := by
  have h : idx_main_v32 (idx_main_v58 (ix2 r j)) = ix1 r := funext fun a => by match a with | ⟨0, _⟩ => rfl
  rw [val_main_v58_apply, val_main_v32_apply, h]
theorem v74_at (r : Fin 1700000) (j : Fin 64) : val_main_v74 (F := Ideal) x1 (ix2 r j) = val_main_v31 (F := Ideal) x1 (ix1 r) := by
  have h : idx_main_v32 (idx_main_v74 (ix2 r j)) = ix1 r := funext fun a => by match a with | ⟨0, _⟩ => rfl
  rw [val_main_v74_apply, val_main_v32_apply, h]

/-- The first layer's product at an entry: row of the features times column of the weights. -/
theorem v33_at (n : Fin 100000) (j : Fin 128) :
    val_main_v33 (F := Ideal) x0 x2 (ix2 n j) = ∑ k : Fin 128, x0 (ix2 n k) * x2 (ix2 k j) := by
  rw [val_main_v33_apply]
  refine Finset.sum_congr rfl fun k _ => ?_
  have hl : lidx_main_v33 (ix2 n j) k = ix2 n k := funext fun a => by match a with | ⟨0, _⟩ => rfl | ⟨1, _⟩ => rfl
  have hr : ridx_main_v33 (ix2 n j) k = ix2 k j := funext fun a => by match a with | ⟨0, _⟩ => rfl | ⟨1, _⟩ => rfl
  rw [hl, hr]

/-- The hidden features: the first layer's output, rectified. -/
def hR : FVec Ideal S100000x128 .f32 := val_main_v49 (F := Ideal) x0 x1 x2 x3

/-- The heads' products at an entry: row of the hidden features times column of the head's weights. -/
theorem v50_at (n : Fin 100000) (j : Fin 64) :
    val_main_v50 (F := Ideal) x0 x1 x2 x3 x4 (ix2 n j) = ∑ k : Fin 128, hR x1 x0 x2 x3 (ix2 n k) * x4 (ix2 k j) := by
  rw [val_main_v50_apply]
  refine Finset.sum_congr rfl fun k _ => ?_
  have hl : lidx_main_v50 (ix2 n j) k = ix2 n k := funext fun a => by match a with | ⟨0, _⟩ => rfl | ⟨1, _⟩ => rfl
  have hr : ridx_main_v50 (ix2 n j) k = ix2 k j := funext fun a => by match a with | ⟨0, _⟩ => rfl | ⟨1, _⟩ => rfl
  rw [hl, hr, hR]
theorem v66_at (n : Fin 100000) (j : Fin 64) :
    val_main_v66 (F := Ideal) x0 x1 x2 x3 x6 (ix2 n j) = ∑ k : Fin 128, hR x1 x0 x2 x3 (ix2 n k) * x6 (ix2 k j) := by
  rw [val_main_v66_apply]
  refine Finset.sum_congr rfl fun k _ => ?_
  have hl : lidx_main_v66 (ix2 n j) k = ix2 n k := funext fun a => by match a with | ⟨0, _⟩ => rfl | ⟨1, _⟩ => rfl
  have hr : ridx_main_v66 (ix2 n j) k = ix2 k j := funext fun a => by match a with | ⟨0, _⟩ => rfl | ⟨1, _⟩ => rfl
  rw [hl, hr, hR]

/-- layer1: an entry is the sum, over the list entries landing on its row, of the gathered product entry times both
    endpoints' factors, plus the bias. -/
theorem layer1_at (i : Fin 100000) (j : Fin 128) :
    val_main_v48 (F := Ideal) x0 x1 x2 x3 (ix2 i j)
      = (0 + ∑ r : Fin 1700000, if dstI x1 r = (i.val : ℤ)
          then (∑ k : Fin 128, x0 (ix2 (srcC x1 r) k) * x2 (ix2 k j)) * (dR x1 (srcC x1 r) * dR x1 (dstC x1 r)) else 0)
        + x3 (ix1 j) := by
  have hb : idx_main_v46 (idx_main_v47 (ix2 i j)) = ix1 j := funext fun a => by match a with | ⟨0, _⟩ => rfl
  rw [val_main_v48_apply, Ideal.addf_def, val_main_v47_apply, val_main_v46_apply, hb,
    val_main_v45, Host.scatterAdd, Ideal.hostScatterAdd_def,
    show scatter_S100000x128_S1700000x1_S1700000x128_1_0_0_1
      = rowScatter2 100000 1700000 128 scatter_S100000x128_S1700000x1_S1700000x128_1_0_0_1_wf from rfl,
    scatterAdd_rows2_apply, val_main_v43_apply, val_main_cst_9_apply, Ideal.ofBits_def, Ideal.ofBits_zero_f32]
  refine congrArg (fun s : EReal => (0 + s) + x3 (ix1 j)) (Finset.sum_congr rfl fun r _ => ?_)
  rw [v44_at, val_main_v42_apply, Ideal.mulf_def, v41_at, norm_at, val_main_v40,
    show gather_S100000x128_S1700000x1_S1700000x128_1_0_n_n_0_1_1128
      = rowGather2 100000 1700000 128 gather_S100000x128_S1700000x1_S1700000x128_1_0_n_n_0_1_1128_wf from rfl,
    gather_rows2_clamp _ _ _ r j _ (v39_at x1 r), v33_at, dstI, srcC]

/-- headMu: an entry is the sum, over the list entries landing on its row, of the gathered product entry times both
    endpoints' factors, plus the bias. -/
theorem headMu_at (i : Fin 100000) (j : Fin 64) :
    val_main_v65 (F := Ideal) x0 x1 x2 x3 x4 x5 (ix2 i j)
      = (0 + ∑ r : Fin 1700000, if dstI x1 r = (i.val : ℤ)
          then (∑ k : Fin 128, hR x1 x0 x2 x3 (ix2 (srcC x1 r) k) * x4 (ix2 k j)) * (dR x1 (srcC x1 r) * dR x1 (dstC x1 r)) else 0)
        + x5 (ix1 j) := by
  have hb : idx_main_v63 (idx_main_v64 (ix2 i j)) = ix1 j := funext fun a => by match a with | ⟨0, _⟩ => rfl
  rw [val_main_v65_apply, Ideal.addf_def, val_main_v64_apply, val_main_v63_apply, hb,
    val_main_v62, Host.scatterAdd, Ideal.hostScatterAdd_def,
    show scatter_S100000x64_S1700000x1_S1700000x64_1_0_0_1
      = rowScatter2 100000 1700000 64 scatter_S100000x64_S1700000x1_S1700000x64_1_0_0_1_wf from rfl,
    scatterAdd_rows2_apply, val_main_v60_apply, val_main_cst_12_apply, Ideal.ofBits_def, Ideal.ofBits_zero_f32]
  refine congrArg (fun s : EReal => (0 + s) + x5 (ix1 j)) (Finset.sum_congr rfl fun r _ => ?_)
  rw [v61_at, val_main_v59_apply, Ideal.mulf_def, v58_at, norm_at, val_main_v57,
    show gather_S100000x64_S1700000x1_S1700000x64_1_0_n_n_0_1_164
      = rowGather2 100000 1700000 64 gather_S100000x64_S1700000x1_S1700000x64_1_0_n_n_0_1_164_wf from rfl,
    gather_rows2_clamp _ _ _ r j _ (v56_at x1 r), v50_at, dstI, srcC]

/-- headLv: an entry is the sum, over the list entries landing on its row, of the gathered product entry times both
    endpoints' factors, plus the bias. -/
theorem headLv_at (i : Fin 100000) (j : Fin 64) :
    val_main_v81 (F := Ideal) x0 x1 x2 x3 x6 x7 (ix2 i j)
      = (0 + ∑ r : Fin 1700000, if dstI x1 r = (i.val : ℤ)
          then (∑ k : Fin 128, hR x1 x0 x2 x3 (ix2 (srcC x1 r) k) * x6 (ix2 k j)) * (dR x1 (srcC x1 r) * dR x1 (dstC x1 r)) else 0)
        + x7 (ix1 j) := by
  have hb : idx_main_v79 (idx_main_v80 (ix2 i j)) = ix1 j := funext fun a => by match a with | ⟨0, _⟩ => rfl
  rw [val_main_v81_apply, Ideal.addf_def, val_main_v80_apply, val_main_v79_apply, hb,
    val_main_v78, Host.scatterAdd, Ideal.hostScatterAdd_def,
    show scatter_S100000x64_S1700000x1_S1700000x64_1_0_0_1
      = rowScatter2 100000 1700000 64 scatter_S100000x64_S1700000x1_S1700000x64_1_0_0_1_wf from rfl,
    scatterAdd_rows2_apply, val_main_v76_apply, val_main_cst_15_apply, Ideal.ofBits_def, Ideal.ofBits_zero_f32]
  refine congrArg (fun s : EReal => (0 + s) + x7 (ix1 j)) (Finset.sum_congr rfl fun r _ => ?_)
  rw [v77_at, val_main_v75_apply, Ideal.mulf_def, v74_at, norm_at, val_main_v73,
    show gather_S100000x64_S1700000x1_S1700000x64_1_0_n_n_0_1_164
      = rowGather2 100000 1700000 64 gather_S100000x64_S1700000x1_S1700000x64_1_0_n_n_0_1_164_wf from rfl,
    gather_rows2_clamp _ _ _ r j _ (v72_at x1 r), v66_at, dstI, srcC]

/-! ## The layers in the shared form -/

/-- The float word of one denotes one. -/
theorem one_eq : oneWord = 1 := by
  show Ideal.ofBits .f32 0x3F800000#32 = 1
  simp [Ideal.ofBits, Ideal.ieee, -EReal.coe_mul]; norm_num

/-- The reference's factor is the shared one. -/
theorem dR_eq : dR x1 = dinvAt oneWord (edgeDst x1) := funext fun n => by rw [dR, dinv_at]

/-- Any layer of the reference, given its sum form, is the shared layer: the layer law with the appended list's words. -/
theorem toLayerAt (hw : Fin 100000 → EReal) (b : EReal) (i : Fin 100000) :
    (0 + ∑ r : Fin 1700000, if dstI x1 r = (i.val : ℤ) then hw (srcC x1 r) * (dR x1 (srcC x1 r) * dR x1 (dstC x1 r)) else 0) + b
      = layerAt (dinvAt oneWord (edgeDst x1)) (edgeSrc x1) (edgeDst x1) hw b i := by
  rw [dR_eq, layerAt]
  exact layer_law (E := 1600000) (N := 100000) (dinvAt oneWord (edgeDst x1)) (fun n => (dinvAt_bounds oneWord one_eq (edgeDst x1) n).1)
    (fun n => (dinvAt_bounds oneWord one_eq (edgeDst x1) n).2) (edgeSrc x1) (edgeDst x1) (srcC x1) (dstC x1) (dstI x1)
    (srcC_edge x1) (dstI_edge x1) (dstC_edge x1) (srcC_loop x1) (dstI_loop x1) (dstC_loop x1) hw b i

theorem layer1_eq (i : Fin 100000) (j : Fin 128) :
    val_main_v48 (F := Ideal) x0 x1 x2 x3 (ix2 i j) = firstLayerAt x0 x1 x2 x3 i j := by
  rw [layer1_at, toLayerAt x1 (fun n => ∑ k : Fin 128, x0 (ix2 n k) * x2 (ix2 k j)) (x3 (ix1 j)) i, firstLayerAt, factor]

/-- The hidden features at an entry: the first layer, rectified. -/
theorem hR_at (i : Fin 100000) (j : Fin 128) : hR x1 x0 x2 x3 (ix2 i j) = hiddenAt x0 x1 x2 x3 i j := by
  rw [hR, val_main_v49_apply, Ideal.maximumf_def, layer1_eq, val_main_call1_v0_apply, val_main_call1_cst_apply, Ideal.ofBits_def,
    Ideal.ofBits_zero_f32, hiddenAt]

/-- The two heads in the shared form. -/
theorem headMu_eq (i : Fin 100000) (j : Fin 64) :
    val_main_v65 (F := Ideal) x0 x1 x2 x3 x4 x5 (ix2 i j) = headAt x0 x1 x2 x3 x4 x5 i j := by
  have hcol : (fun n => ∑ k : Fin 128, hR x1 x0 x2 x3 (ix2 n k) * x4 (ix2 k j))
      = fun n => ∑ k : Fin 128, hiddenAt x0 x1 x2 x3 n k * x4 (ix2 k j) :=
    funext fun n => Finset.sum_congr rfl fun k _ => by rw [hR_at]
  rw [headMu_at, toLayerAt x1 (fun n => ∑ k : Fin 128, hR x1 x0 x2 x3 (ix2 n k) * x4 (ix2 k j)) (x5 (ix1 j)) i, hcol, headAt,
    factor]
theorem headLv_eq (i : Fin 100000) (j : Fin 64) :
    val_main_v81 (F := Ideal) x0 x1 x2 x3 x6 x7 (ix2 i j) = headAt x0 x1 x2 x3 x6 x7 i j := by
  have hcol : (fun n => ∑ k : Fin 128, hR x1 x0 x2 x3 (ix2 n k) * x6 (ix2 k j))
      = fun n => ∑ k : Fin 128, hiddenAt x0 x1 x2 x3 n k * x6 (ix2 k j) :=
    funext fun n => Finset.sum_congr rfl fun k _ => by rw [hR_at]
  rw [headLv_at, toLayerAt x1 (fun n => ∑ k : Fin 128, hR x1 x0 x2 x3 (ix2 n k) * x6 (ix2 k j)) (x7 (ix1 j)) i, hcol, headAt,
    factor]

end Cert.ReferenceIdeal.Index

end
-- ==== Proof.Bridge.lean ====
/-
  The two programs' results are one function of the arguments. Entry `(i, j)` of the kernel program's first result and
  of the reference's first result are both the `mu` head of GcnSpec.lean at `(i, j)` — the kernel's by reading its stages
  at an index (the joined weights' left half, the left 64 columns), the reference's by the layer law, which folds the
  appended self-loops into the node's own term and distributes the target's factor over the edges' sum —, and likewise
  the second results are the `logvar` head (the right halves).
-/
import proofs.«174673_j36627481101161_2_alg».proof.Proof.KernelSpec
import proofs.«174673_j36627481101161_2_alg».proof.Proof.RefLayers

noncomputable section

namespace Cert.Bridge

open Idealize.ShloMosaic Idealize.ShloMosaic.ValueIdx

variable (x0 : FVec Ideal ⟨2, ![100000, 128]⟩ .f32) (x1 : IVec ⟨2, ![2, 1600000]⟩ 32) (x2 : FVec Ideal ⟨2, ![128, 128]⟩ .f32)
  (x3 : FVec Ideal ⟨1, ![128]⟩ .f32) (x4 : FVec Ideal ⟨2, ![128, 64]⟩ .f32) (x5 : FVec Ideal ⟨1, ![64]⟩ .f32)
  (x6 : FVec Ideal ⟨2, ![128, 64]⟩ .f32) (x7 : FVec Ideal ⟨1, ![64]⟩ .f32)

/-- The first results agree: both are the first head, entry by entry. -/
theorem out0_eq : Cert.KernelIdeal.Fold.out0 x0 x1 x2 x3 x4 x5 x6 x7
    = Cert.ReferenceIdeal.ReadP.val_main_v65 (F := Ideal) x0 x1 x2 x3 x4 x5 := by
  funext y
  obtain ⟨i, j, rfl⟩ : ∃ (i : Fin 100000) (j : Fin 64), y = ix2 i j := ⟨y 0, y 1, eq_ix2 y⟩
  rw [Cert.KernelIdeal.Spec.out0_at, Cert.ReferenceIdeal.Index.headMu_eq]

/-- The second results agree: both are the second head, entry by entry. -/
theorem out1_eq : Cert.KernelIdeal.Fold.out1 x0 x1 x2 x3 x4 x5 x6 x7
    = Cert.ReferenceIdeal.ReadP.val_main_v81 (F := Ideal) x0 x1 x2 x3 x6 x7 := by
  funext y
  obtain ⟨i, j, rfl⟩ : ∃ (i : Fin 100000) (j : Fin 64), y = ix2 i j := ⟨y 0, y 1, eq_ix2 y⟩
  rw [Cert.KernelIdeal.Spec.out1_at, Cert.ReferenceIdeal.Index.headLv_eq]

end Cert.Bridge

end
-- ==== Proof.Claims.lean ====
import proofs.«174673_j36627481101161_2_alg».proof.Defs
import proofs.«174673_j36627481101161_2_alg».proof.Proof.Gen.Kernel
import proofs.«174673_j36627481101161_2_alg».proof.Proof.Gen.Kernel.Frame
import proofs.«174673_j36627481101161_2_alg».proof.Proof.Gen.KernelIdeal
import proofs.«174673_j36627481101161_2_alg».proof.Proof.Gen.KernelIdeal.Frame
import proofs.«174673_j36627481101161_2_alg».proof.Proof.Gen.ReferenceIdeal
import proofs.«174673_j36627481101161_2_alg».proof.Proof.Gen.Pre_finite_inputs
import proofs.«174673_j36627481101161_2_alg».proof.Proof.KernelRun
import proofs.«174673_j36627481101161_2_alg».proof.Proof.KernelFold
import proofs.«174673_j36627481101161_2_alg».proof.Proof.RefRun
import proofs.«174673_j36627481101161_2_alg».proof.Proof.RefRead
import proofs.«174673_j36627481101161_2_alg».proof.Proof.Bridge

/-!
# The claims

The three programs run, and their argument arrays end as launched: for the kernel at the word level and for its idealization
these are the frames of their eight segments (two regions among stretches of host operations); for the reference it is
its run with the two results dropped.

Nothing was rewritten on the way from the kernel to its idealization, so that claim is `True`.

At the extended reals the idealized kernel's two result arrays end at the fold of its segments over the launch memory,
which is two functions of the eight argument arrays — the left and right 64 columns of the second graph-convolution
layer — and the reference's two results end at its own two functions of the arguments. From memories that agree on the
arguments the two pairs of functions are equal, array by array, so both runs end with equal results.
-/

noncomputable section

open Idealize.ShloMosaic Idealize.ShloMosaic.TcCoe Idealize.SL.Sem

namespace Cert.Proof.Claims

/-- The kernel at the word level runs and keeps its arguments: its generated frame. -/
theorem frame_p : Cert.frame_Kernel := fun m ρ _ => Cert.Kernel.Gen.frame m ρ

/-- The idealized kernel runs and keeps its arguments: its generated frame. -/
theorem frame_pi : Cert.frame_KernelIdeal := fun m ρ _ => Cert.KernelIdeal.Gen.frame m ρ

/-- The reference runs and keeps its arguments: its run, with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization is the kernel's own text read at the extended reals: nothing to preserve. -/
theorem preserves : Cert.preserves_Kernel_KernelIdeal := trivial

/-- At the extended reals, from memories that agree on the eight arguments, both programs end with equal results:
    the kernel's two result arrays are the segments' fold, which is the two column halves of the second layer as
    functions of the arguments; the reference's are its own two functions of the arguments; and the two pairs of
    functions are equal. Both keep their arguments. -/
theorem algebraic : Cert.algebraic_KernelIdeal_ReferenceIdeal := by
  intro m ρ m' ρ' _ hagree
  refine ⟨fun c => Cert.KernelIdeal.Fold.out0
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.KernelIdeal.Fold.out1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    ?_, ?_⟩
  · exact (θ_run Cert.KernelIdeal.defs _ _).mono
      (fun r h c => ⟨(h c).1.trans (Cert.KernelIdeal.Fold.W8_out0 m ρ c),
        (h c).2.1.trans (Cert.KernelIdeal.Fold.W8_out1 m ρ c), (h c).2.2⟩)
      (Cert.KernelIdeal.GenP.run_fold (F := Ideal) m ρ)
  · refine (θ_run Cert.ReferenceIdeal.defs _ _).mono (fun r h c => ?_)
      (Cert.ReferenceIdeal.ValueP.run (F := Ideal) m' ρ')
    obtain ⟨a0, a1, a2, a3, a4, a5, a6, a7⟩ := hagree c
    refine ⟨(h c).1.trans ?_, (h c).2.1.trans ?_, (h c).2.2⟩
    · refine (Cert.ReferenceIdeal.ReadP.val_main_v65_eq (F := Ideal) m' c).trans ?_
      rw [a0, a1, a2, a3, a4, a5]
      exact (Cert.Bridge.out0_eq _ _ _ _ _ _ _ _).symm
    · refine (Cert.ReferenceIdeal.ReadP.val_main_v81_eq (F := Ideal) m' c).trans ?_
      rw [a0, a1, a2, a3, a6, a7]
      exact (Cert.Bridge.out1_eq _ _ _ _ _ _ _ _).symm

end Cert.Proof.Claims

end
-- ==== Proof.lean ====
/- The proof of `Cert.Claim` for a two-layer graph convolution with a variational head: a kernel program whose dense
   feature transforms are two pallas regions (row-blocked matrix products) against a plain reference.

   The two programs normalise differently. The reference appends one self-loop per node to the edge list and sums, per
   layer, the messages `(h·W)[src] · (dinv[src] · dinv[dst])` over all entries into their targets. The kernel scales the
   transformed features by the source's factor first, sums the edges' messages into their targets, adds the node's own
   scaled feature in place of the self-loop, scales the total by the target's factor, and computes the two heads as one
   layer over the heads' weights joined side by side, splitting its columns at the end. On the extended reals the two
   agree because the factor `dinv = where(deg > 0, rsqrt(max(deg, 1)), 0)` is nonnegative and never `+∞`, so it
   distributes over the sums (Proof/LayerLaw.lean); a format change and the order of a sum are the identity there, and a
   region's blocked product is the whole product (Proof/RegionProduct.lean).

   The modules: LayerLaw (the algebra), GcnSpec (the common value, entry by entry), RowOps and IndexBits (the row gather,
   the accumulating row scatter and the index words at an entry), KernelStages / KernelStagesG / KernelIndex / KernelSpec
   (the kernel program's stages and their entries), KernelRun and KernelFold (its run and the results as the stages),
   RefRun / RefRead (the reference's run and its operations at an entry), RefWords / RefFactor / RefLayers (its lists,
   factors and layers at an entry), Bridge (the results are one function), Claims (the five claims). -/
import proofs.«174673_j36627481101161_2_alg».proof.Defs
import proofs.«174673_j36627481101161_2_alg».proof.Proof.Gen.Kernel
import proofs.«174673_j36627481101161_2_alg».proof.Proof.Gen.Kernel.Skeleton
import proofs.«174673_j36627481101161_2_alg».proof.Proof.Gen.Kernel.Launch
import proofs.«174673_j36627481101161_2_alg».proof.Proof.Gen.Kernel.Points
import proofs.«174673_j36627481101161_2_alg».proof.Proof.Gen.Kernel.Frame
import proofs.«174673_j36627481101161_2_alg».proof.Proof.Gen.KernelIdeal
import proofs.«174673_j36627481101161_2_alg».proof.Proof.Gen.KernelIdeal.Skeleton
import proofs.«174673_j36627481101161_2_alg».proof.Proof.Gen.KernelIdeal.Launch
import proofs.«174673_j36627481101161_2_alg».proof.Proof.Gen.KernelIdeal.Points
import proofs.«174673_j36627481101161_2_alg».proof.Proof.Gen.KernelIdeal.Frame
import proofs.«174673_j36627481101161_2_alg».proof.Proof.Gen.ReferenceIdeal
import proofs.«174673_j36627481101161_2_alg».proof.Proof.Gen.Pre_finite_inputs
import proofs.«174673_j36627481101161_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
